-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x32x1 : Shape := ⟨3, ![4096, 32, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32x1 : S_.BroadcastsInDim S4096x32x1 (![] : Fin 0 → Fin S4096x32x1.rank)
  reducesTo_S4096x32x1_S_d0_1_2 : S4096x32x1.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : IVec S4096x4096 32) (main_arg2 : FVec F S4096x32x1 .f32) (main_arg3 : FVec F S4096x32x1 .f32) (main_arg4 : FVec F S4096 .f32) (main_arg5 : FVec F S4096 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32x1 .f32 := Host.absf main_arg2
  let main_cst_0 : FVec F S_ .f32 := constant S_ .f32 0x7F800000#32
  let main_v5 : FVec F S4096x32x1 .f32 := broadcastInDim S4096x32x1 ![] bcast_S_S4096x32x1 main_cst_0
  let main_v6 : IVec S4096x32x1 1 := cmpf .olt main_v4 main_v5
  let main_c_1 : IVec S_ 1 := constantI S_ 1 1#1
  let main_v7 : IVec S_ 1 := (fun x v => Host.reduce IntOp.andi x v reducesTo_S4096x32x1_S_d0_1_2 h_S_) main_v6 main_c_1
  let main_v8 : IVec S_ 1 := andi main_v3 main_v7
  let main_v9 : FVec F S4096x32x1 .f32 := Host.absf main_arg3
  let main_cst_2 : FVec F S_ .f32 := constant S_ .f32 0x7F800000#32
  let main_v10 : FVec F S4096x32x1 .f32 := broadcastInDim S4096x32x1 ![] bcast_S_S4096x32x1 main_cst_2
  let main_v11 : IVec S4096x32x1 1 := cmpf .olt main_v9 main_v10
  let main_c_3 : IVec S_ 1 := constantI S_ 1 1#1
  let main_v12 : IVec S_ 1 := (fun x v => Host.reduce IntOp.andi x v reducesTo_S4096x32x1_S_d0_1_2 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_arg6 main_v13 main_v16
-- ==== Kernel.lean ====
abbrev S4x2048x4096 : Shape := ⟨3, ![4, 2048, 4096]⟩
abbrev S4096x4096 : Shape := ⟨2, ![4096, 4096]⟩
abbrev S4096x32x1 : Shape := ⟨3, ![4096, 32, 1]⟩
abbrev S4096 : Shape := ⟨1, ![4096]⟩
abbrev S4096x32 : Shape := ⟨2, ![4096, 32]⟩
abbrev S256x4096 : Shape := ⟨2, ![256, 4096]⟩
abbrev S256x32 : Shape := ⟨2, ![256, 32]⟩
abbrev S256 : Shape := ⟨1, ![256]⟩
abbrev S256x32x128 : Shape := ⟨3, ![256, 32, 128]⟩
abbrev S256x32x1 : Shape := ⟨3, ![256, 32, 1]⟩
abbrev S256x1 : Shape := ⟨2, ![256, 1]⟩
abbrev S1x4096 : Shape := ⟨2, ![1, 4096]⟩
abbrev S8192x4096 : Shape := ⟨2, ![8192, 4096]⟩
abbrev S1024x512 : Shape := ⟨2, ![1024, 512]⟩
abbrev S2048x512 : Shape := ⟨2, ![2048, 512]⟩
abbrev S2048 : Shape := ⟨1, ![2048]⟩
abbrev S1024x2048 : Shape := ⟨2, ![1024, 2048]⟩
abbrev S1x2048 : Shape := ⟨2, ![1, 2048]⟩

abbrev nBuf : Space → Nat
  | .hbm => 13
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32x1, .f32⟩
  | .hbm, ⟨3, _⟩ => ⟨S4096x32x1, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x32, .f32⟩
  | .hbm, ⟨8, _⟩ => ⟨S4096x32, .f32⟩
  | .hbm, ⟨9, _⟩ => ⟨S4096x4096, .bf16⟩
  | .hbm, ⟨10, _⟩ => ⟨S8192x4096, .f32⟩
  | .hbm, ⟨11, _⟩ => ⟨S8192x4096, .f32⟩
  | .hbm, ⟨12, _⟩ => ⟨S4x2048x4096, .f32⟩
  | .local _ .vmem, ⟨0, _⟩ => ⟨S256x4096, .i32⟩
  | .local _ .vmem, ⟨1, _⟩ => ⟨S256x4096, .i32⟩
  | .local _ .vmem, ⟨2, _⟩ => ⟨S256x32, .f32⟩
  | .local _ .vmem, ⟨3, _⟩ => ⟨S256x32, .f32⟩
  | .local _ .vmem, ⟨4, _⟩ => ⟨S256x32, .f32⟩
  | .local _ .vmem, ⟨5, _⟩ => ⟨S256x32, .f32⟩
  | .local _ .vmem, ⟨6, _⟩ => ⟨S4096, .f32⟩
  | .local _ .vmem, ⟨7, _⟩ => ⟨S256, .f32⟩
  | .local _ .vmem, ⟨8, _⟩ => ⟨S256, .f32⟩
  | .local _ .vmem, ⟨9, _⟩ => ⟨S256x4096, .bf16⟩
  | .local _ .vmem, ⟨10, _⟩ => ⟨S256x4096, .bf16⟩
  | .local _ .vmem, ⟨11, _⟩ => ⟨S1024x512, .f32⟩
  | .local _ .vmem, ⟨12, _⟩ => ⟨S1024x512, .f32⟩
  | .local _ .vmem, ⟨13, _⟩ => ⟨S2048x512, .bf16⟩
  | .local _ .vmem, ⟨14, _⟩ => ⟨S2048x512, .bf16⟩
  | .local _ .vmem, ⟨15, _⟩ => ⟨S2048, .f32⟩
  | .local _ .vmem, ⟨16, _⟩ => ⟨S2048, .f32⟩
  | .local _ .vmem, ⟨17, _⟩ => ⟨S1024x2048, .f32⟩
  | .local _ .vmem, ⟨18, _⟩ => ⟨S1024x2048, .f32⟩
  | .local _ .vmem, ⟨19, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4096x32x1_S4096x32 : S4096x32x1.ShapeCasts S4096x32
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S256_S256_0 : ∀ a, (![0] : Fin 1 → Nat) a + S256.size a ≤ S256.size a
  h_S256 : 0 < S256.numel
  shapeCasts_S256_S256x1 : S256.ShapeCasts S256x1
  broadcasts_S256x1_S256x4096 : S256x1.Broadcasts S256x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  shapeCasts_S8192x4096_S4x2048x4096 : S8192x4096.ShapeCasts S4x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S4096x32.size a
  hwx0_1 : ∀ i : grid0.Coords, EltTy.bits .f32 = 32 ∨ (Rect.block (s := S4096x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S4096x32.size a
  hwx0_2 : ∀ i : grid0.Coords, EltTy.bits .f32 = 32 ∨ (Rect.block (s := S4096x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S4096.size a
  hwx0_4 : ∀ i : grid0.Coords, EltTy.bits .f32 = 32 ∨ (Rect.block (s := S4096) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .bf16 = 32 ∨ (Rect.block (s := S4096x4096) S256x4096.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S4096.size a
  hwx1_2 : ∀ i : grid1.Coords, EltTy.bits .f32 = 32 ∨ (Rect.block (s := S4096) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x32x1 : Shape := ⟨3, ![4096, 32, 1]⟩
abbrev S4096 : Shape := ⟨1, ![4096]⟩
abbrev S4096x32x128 : Shape := ⟨3, ![4096, 32, 128]⟩
abbrev S4096x1 : Shape := ⟨2, ![4096, 1]⟩
abbrev S1x4096 : Shape := ⟨2, ![1, 4096]⟩
abbrev S1x1x4096 : Shape := ⟨3, ![1, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32x1, .f32⟩
  | .hbm, ⟨3, _⟩ => ⟨S4096x32x1, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096x32x128, .f32⟩
  | .hbm, ⟨9, _⟩ => ⟨S4096x32x128, .f32⟩
  | .hbm, ⟨10, _⟩ => ⟨S4096x32x128, .f32⟩
  | .hbm, ⟨11, _⟩ => ⟨S4096x32x128, .f32⟩
  | .hbm, ⟨12, _⟩ => ⟨S4096x32x128, .f32⟩
  | .hbm, ⟨13, _⟩ => ⟨S4096x4096, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.FrameK.Region0.lean ====
/-
  Region 0: the dequantisation kernel's frame half, at any float instance.

  The grid has 16 points; point t stages rows 256·t … 256·t + 255 of the code matrix, of the scales and zero points and of
  the row factors, and the whole vector of column factors; the body loads the five blocks whole, computes the dequantised
  256 × 4096 block as one pure term of them, and stores it whole into the output's staging buffer. So after the body the
  output buffer holds that term of the five input blocks, and the inputs' buffers are as they were.
-/
import proofs.«166831_j64330020159907_2_alg».proof.Proof.Gen.Kernel.Launch
import proofs.«166831_j64330020159907_2_alg».proof.Proof.Gen.Kernel.Skeleton
import proofs.«166831_j64330020159907_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, fetched there or not: where
    it is not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every point, fetched there or not: where
    it is not fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every point, fetched there or not: where
    it is not fetched the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every point, fetched there or not: where
    it is not fetched the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the array at every point, fetched there or not: where
    it is not fetched the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rA : Rect S256x4096 := Rect.unit (s := S256x4096) ![0, 0] S256x4096.size inb_S256x4096_S256x4096_0_0
abbrev rB : Rect S256x32 := Rect.unit (s := S256x32) ![0, 0] S256x32.size inb_S256x32_S256x32_0_0
abbrev rC : Rect S256 := Rect.unit (s := S256) ![0] S256.size inb_S256_S256_0
abbrev rD : Rect S4096 := Rect.unit (s := S4096) ![0] S4096.size inb_S4096_S4096_0

/-- The output's staging buffer after the body, from the five input blocks: its one store. -/
def out0_5 (x0 : Vec F S256x4096 .i32) (x1 x2 : Vec F S256x32 .f32) (x3 : Vec F S4096 .f32) (x4 : Vec F S256 .f32) : Vec F S256x4096 .bf16 :=
  View.canon [⟨rA, k0_pay1 (View.ld x0 rA) (View.ld x1 rB) (View.ld x2 rB) (View.ld x4 rC) (View.ld x3 rD)⟩]

/-- The store covers the buffer. -/
theorem cover0_5 (p0 : Vec F S256x4096 .bf16) (y : S256x4096.Idx) :
    ∃ pc ∈ ([⟨rA, p0⟩] : List (View.Piece (Elt F) S256x4096 .bf16)), y ∈ pc.1.set :=
  View.cover_of_tiled [⟨rA, p0⟩] S256x4096.size (by rfl) y

set_option maxHeartbeats 1000000 in
/-- The body on whole staging memrefs, the inputs' at their contents and the output's at anything, runs to the continuation
    holding the inputs' as they were and the output's at `out0_5` of them. -/
theorem sound_kernel0 (c : Dev nD) (E : Set ℕ) (i : grid0.Coords)
    (arg1 : Memref sig .tc .vmem S256x4096 .i32) (harg1 : arg1.IsWhole) (arg2 : Memref sig .tc .vmem S256x32 .f32) (harg2 : arg2.IsWhole)
    (arg3 : Memref sig .tc .vmem S256x32 .f32) (harg3 : arg3.IsWhole) (arg4 : Memref sig .tc .vmem S4096 .f32) (harg4 : arg4.IsWhole)
    (arg5 : Memref sig .tc .vmem S256 .f32) (harg5 : arg5.IsWhole) (arg6 : Memref sig .tc .vmem S256x4096 .bf16) (harg6 : arg6.IsWhole)
    (x0 : Vec F S256x4096 .i32) (x1 x2 : Vec F S256x32 .f32) (x3 : Vec F S4096 .f32) (x4 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__dequant_kernel i arg1 harg1 arg2 harg2 arg3 harg3 arg4 harg4 arg5 harg5 arg6 harg6) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core `c`: the arrays as the region finds them; after the body at point `t` each
    input's buffer at its block and the output's at `out0_5` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frame

end
-- ==== Proof.FrameK.Kernel1.lean ====
/-
  Region 1: the matmul kernel's body, case by case, at any float instance.

  The grid is 8 × 2 × 8; the last coordinate l walks the reduction axis in eight steps of 512. The body keeps a
  1024 × 2048 accumulator in a scratch buffer that survives from one grid point to the next: at l = 0 it first
  stores zeros there; at every point it loads the accumulator, adds the product of the input block (rounded to the
  narrow format) with the weight block, and stores it back; at l = 7 it also stores the accumulator plus the
  bias row into the output's staging buffer. So there are three cases — first step, middle steps, last step —
  and in each the scratch ends at one pure term of the two input blocks and of what it held (zeros, at the first
  step), the output buffer is untouched except at the last step, and the inputs' buffers are as they were.
-/
import proofs.«166831_j64330020159907_2_alg».proof.Proof.Gen.Kernel.Launch
import proofs.«166831_j64330020159907_2_alg».proof.Proof.Gen.Kernel.Skeleton
import proofs.«166831_j64330020159907_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional's test, `l = 0`, as the kernel computes it from the grid coordinates. -/
abbrev cond1_0 (i : grid1.Coords) : Prop := (Scalar.cmpi .ne (Scalar.extui (Scalar.cmpi .eq (BitVec.ofNat 32 (i 2).val) 0#32)) 0#32) = 1#1
/-- The second conditional's test, `l = 7`. -/
abbrev cond1_1 (i : grid1.Coords) : Prop := k1_cond2 i = 1#1

theorem hz2 : (![0, 0] : Fin 2 → ℕ) = fun _ => 0 := by
  funext a; match a with | ⟨0, _⟩ => rfl | ⟨1, _⟩ => rfl
theorem hz1 : (![0] : Fin 1 → ℕ) = fun _ => 0 := by
  funext a; match a with | ⟨0, _⟩ => rfl

set_option maxHeartbeats 1000000 in
/-- FIRST STEP (`l = 0`, not the last): whatever the scratch held, it ends at the step's term over zeros; the output's
    buffer is handed back as found. -/
theorem sound_kernel1_A (c : Dev nD) (E : Set ℕ) (i : grid1.Coords)
    (arg3 : Memref sig .tc .vmem S1024x512 .f32) (harg3 : arg3.IsWhole) (arg4 : Memref sig .tc .vmem S2048x512 .bf16) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (x0 : Vec F S1024x512 .f32) (x1 : Vec F S2048x512 .bf16) (x2 : Vec F S2048 .f32) (o : Vec F S1024x2048 .f32) (hc0 : cond1_0 i) (hc1 : ¬ cond1_1 i) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare o ∗ owns (c : Thread nD τ) arg7 fullShare (k1_pay2 x0 (k1_pay1 (F := F)) x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  iexists _; isplitr
  swap; · iexact H4
  ipureintro
  rw [View.read_writes_eq_canon _ _ _ (fun y => ⟨_, List.mem_cons_self .., View.mem_set_unit_zero hz2 inb_S1024x2048_S1024x2048_0_0 y⟩),
    View.canon_cons_unit_zero hz2]
  sl_unfold_run_names
  rw [View.readCov_unit_zero _ hz2]
  simp only [View.readAt_eq_ld, View.ld_unit_zero (S := S1024x512) hz2, View.ld_unit_zero (S := S2048x512) hz2]

set_option maxHeartbeats 1000000 in
/-- MIDDLE STEPS (`l` neither 0 nor 7): the scratch goes from what it held to the step's term over that; the output's
    buffer is handed back as found. -/
theorem sound_kernel1_B (c : Dev nD) (E : Set ℕ) (i : grid1.Coords)
    (arg3 : Memref sig .tc .vmem S1024x512 .f32) (harg3 : arg3.IsWhole) (arg4 : Memref sig .tc .vmem S2048x512 .bf16) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (x0 : Vec F S1024x512 .f32) (x1 : Vec F S2048x512 .bf16) (x2 : Vec F S2048 .f32) (s o : Vec F S1024x2048 .f32) (hc0 : ¬ cond1_0 i) (hc1 : ¬ cond1_1 i) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare o ∗ owns (c : Thread nD τ) arg7 fullShare (k1_pay2 x0 s x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  iexists _; isplitr
  swap; · iexact H4
  ipureintro
  rw [View.read_writes_eq_canon _ _ _ (fun y => ⟨_, List.mem_cons_self .., View.mem_set_unit_zero hz2 inb_S1024x2048_S1024x2048_0_0 y⟩),
    View.canon_cons_unit_zero hz2]
  try sl_unfold_run_names
  simp only [View.readAt_eq_ld, View.ld_unit_zero (S := S1024x512) hz2, View.ld_unit_zero (S := S2048x512) hz2,
    View.ld_unit_zero (S := S1024x2048) hz2]

set_option maxHeartbeats 1000000 in
/-- LAST STEP (`l = 7`, not the first): the scratch as in the middle steps, and the output's buffer ends at the new
    accumulator plus the bias row. -/
theorem sound_kernel1_C (c : Dev nD) (E : Set ℕ) (i : grid1.Coords)
    (arg3 : Memref sig .tc .vmem S1024x512 .f32) (harg3 : arg3.IsWhole) (arg4 : Memref sig .tc .vmem S2048x512 .bf16) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (x0 : Vec F S1024x512 .f32) (x1 : Vec F S2048x512 .bf16) (x2 : Vec F S2048 .f32) (s : Vec F S1024x2048 .f32) (hc0 : ¬ cond1_0 i) (hc1 : cond1_1 i) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 s x1) x2) ∗ owns (c : Thread nD τ) arg7 fullShare (k1_pay2 x0 s x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self .., View.mem_set_unit_zero hz2 inb_S1024x2048_S1024x2048_0_0 y⟩),
      View.canon_cons_unit_zero hz2]
    try sl_unfold_run_names
    simp only [View.readCov_cons_toLoadRect, View.readAt_eq_ld, View.ld_unit_zero (S := S1024x512) hz2, View.ld_unit_zero (S := S2048x512) hz2,
      View.ld_unit_zero (S := S1024x2048) hz2, View.ld_unit_zero (S := S2048) hz1]
  iexists _; isplitr
  swap; · iexact H4
  ipureintro
  sl_unfold_run_names
  rw [View.read_writes_eq_canon _ _ _ (fun y => ⟨_, List.mem_cons_self .., View.mem_set_unit_zero hz2 inb_S1024x2048_S1024x2048_0_0 y⟩),
    View.canon_cons_unit_zero hz2]
  try sl_unfold_run_names
  simp only [View.readAt_eq_ld, View.ld_unit_zero (S := S1024x512) hz2, View.ld_unit_zero (S := S2048x512) hz2,
    View.ld_unit_zero (S := S1024x2048) hz2]

end Cert.Kernel.Frame

end
-- ==== Proof.FrameK.Region1.lean ====
/-
  Region 1: the matmul kernel's frame half, at any float instance.

  The 128 grid points are (i, j, l) in row-major order, so l is the point's number modulo 8. The accumulator scratch is
  carried from point to point: after point n it holds the step's term of the point's two input blocks over zeros when
  l = 0 and over what point n − 1 left otherwise. The output's staging buffer is stored only at l = 7, where it is also
  the only place it is written back; elsewhere it is handed back as found. The region's invariant is therefore: before
  the first point every scoped buffer that is no staging buffer at anything; afterwards the same with the scratch at the
  accumulator of the point before.
-/
import proofs.«166831_j64330020159907_2_alg».proof.Proof.FrameK.Kernel1
import Idealize.ShloMosaic.Lib.Pipeline.RegionsLoop
import Idealize.ShloMosaic.Lib.Pipeline.FrameSuffix

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, fetched there or not: where
    it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every point, fetched there or not: where
    it is not fetched the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every point, fetched there or not: where
    it is not fetched the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditionals over the grid -/

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)
/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last reduction step the output is idle and not written back; on it, live. -/
theorem idleAt1_3 : ∀ t : Fin cfg1.N, ¬ cond1_1 (grid1.coords t) → cfg1.idle 3 (grid1.coords t) = true := by decide +kernel
theorem noFlush1_3 : ∀ t : Fin cfg1.N, ¬ cond1_1 (grid1.coords t) → (cfg1.win 3).flush t = false := by decide +kernel
theorem liveAt1_3 : ∀ t : Fin cfg1.N, cond1_1 (grid1.coords t) → cfg1.idle 3 (grid1.coords t) = false := by decide +kernel

/-! ## The carried accumulator -/

/-- The scratch operand: a whole scoped buffer of the kernel's own. -/
abbrev scM1 : Memref sig .tc .vmem S1024x2048 .f32 := Memref.whole cc1_scratch0

/-- What the scratch holds after the body at point `n`: the step's term of the point's two input blocks, over zeros at
    the first reduction step and over what the point before left otherwise. -/
def acc1 (c : Dev nD) : (n : ℕ) → n < cfg1.N → Vec F S1024x2048 .f32
  | 0, hn => k1_pay2 (iblk1 V c 0 ⟨0, hn⟩) (k1_pay1 (F := F)) (iblk1 V c 1 ⟨0, hn⟩)
  | n + 1, hn => k1_pay2 (iblk1 V c 0 ⟨n + 1, hn⟩)
      (if (n + 1) % 8 = 0 then (k1_pay1 (F := F)) else acc1 c n (Nat.lt_of_succ_lt hn)) (iblk1 V c 1 ⟨n + 1, hn⟩)

theorem acc1_first (c : Dev nD) (t : Fin cfg1.N) (h0 : t.val % 8 = 0) :
    acc1 V c t.val t.isLt = k1_pay2 (iblk1 V c 0 t) (k1_pay1 (F := F)) (iblk1 V c 1 t) := by
  obtain ⟨n, hn⟩ := t
  cases n with
  | zero => rfl
  | succ n => show k1_pay2 _ (if (n + 1) % 8 = 0 then _ else _) _ = _; rw [if_pos h0]

theorem acc1_later (c : Dev nD) (t : Fin cfg1.N) (h0 : ¬ t.val % 8 = 0) :
    acc1 V c t.val t.isLt = k1_pay2 (iblk1 V c 0 t) (acc1 V c (t.val - 1) (Nat.lt_of_le_of_lt (Nat.sub_le _ _) t.isLt)) (iblk1 V c 1 t) := by
  obtain ⟨n, hn⟩ := t
  cases n with
  | zero => exact absurd (Nat.zero_mod _) h0
  | succ n => show k1_pay2 _ (if (n + 1) % 8 = 0 then _ else _) _ = _; rw [if_neg h0]; rfl

/-- The scoped buffers that are neither a staging buffer of this call nor its scratch: the other call's staging buffers. -/
abbrev others1 (c : Dev nD) : sProp 𝕄 :=
  Pipeline.scopedRestBut (Ix := Unit) (Name := ℕ) (U := UR sig nD τ) (Lvl := ℕ) (Val := Elt F) spec1 c [cc1_scratch0]

/-- The class invariant with the scratch split out. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [scM1, owns_whole]; try rfl

/-- The region's invariant before position `n`. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' memrefs hold their blocks; the point's number modulo 8 says which case it is in; the
    invariant hands the body the scratch at what the point before left (at anything at the very first point) and takes it
    back at this point's accumulator; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  by_cases h0 : t.val % 8 = 0
  · have h1 : ¬ t.val % 8 = 7 := by omega
    have hc0 : cond1_0 (grid1.coords t) := (hcond1_0 t).mpr h0
    have hc1 : ¬ cond1_1 (grid1.coords t) := fun h => h1 ((hcond1_1 t).mp h)
    rw [Dat.leavesExact_idle (dat1 V c) 3 t (idleAt1_3 t hc1) (noFlush1_3 t hc1)]
    rw [acc1_first V c t h0]
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩, ⟨%d3, H3⟩⟩
      iapply (sound_kernel1_A c Set.univ (grid1.coords t) _ _ _ _ _ _ _ _ _ _ (iblk1 V c 0 t) (iblk1 V c 1 t) (iblk1 V c 2 t) _ hc0 hc1 _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩⟩
      iapply (sound_kernel1_A c Set.univ (grid1.coords t) _ _ _ _ _ _ _ _ _ _ (iblk1 V c 0 t) (iblk1 V c 1 t) (iblk1 V c 2 t) _ hc0 hc1 _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬ cond1_0 (grid1.coords t) := fun h => h0 ((hcond1_0 t).mp h)
    rw [acc1_later V c t h0]
    rw [PhiS1_castSucc V c t, PhiS1_pos V c _ _ hz]
    by_cases h1 : t.val % 8 = 7
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3, acc1_later V c t h0]
      iintro ⟨⟨⟨HS, Hoth⟩, Hg⟩, Ho, ⟨%d0, H0⟩, ⟨%d1, H1⟩, ⟨%d2, H2⟩, ⟨%d3, H3⟩⟩
      iapply (sound_kernel1_C c Set.univ (grid1.coords t) _ _ _ _ _ _ _ _ _ _ (iblk1 V c 0 t) (iblk1 V c 1 t) (iblk1 V c 2 t) _ hc0 hc1 _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hc1 : ¬ cond1_1 (grid1.coords t) := fun h => h1 ((hcond1_1 t).mp h)
      rw [Dat.leavesExact_idle (dat1 V c) 3 t (idleAt1_3 t hc1) (noFlush1_3 t hc1)]
      iintro ⟨⟨⟨HS, Hoth⟩, Hg⟩, Ho, ⟨%d0, H0⟩, ⟨%d1, H1⟩, ⟨%d2, H2⟩, ⟨%d3, H3⟩⟩
      iapply (sound_kernel1_B c Set.univ (grid1.coords t) _ _ _ _ _ _ _ _ _ _ (iblk1 V c 0 t) (iblk1 V c 1 t) (iblk1 V c 2 t) _ _ hc0 hc1 _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS, Hoth⟩, Hg⟩
  isplitl [HS Hoth]
  · isplitl [HS]; · iexists _; iexact HS
    iexact Hoth
  iexact Hg

end Region1

end Cert.Kernel.Frame

end
-- ==== Proof.FrameK.Run.lean ====
/-
  The run of the whole program, at any float instance: two host reshapes, the dequantisation region, a host reshape, the
  matmul region, a host reshape. The contents of every unscoped buffer are followed from the launch through the five
  segments: a host stretch applies its operations; a region leaves each of its arrays at what its pipeline's write-backs
  fold to and every other buffer as it found it. Every weakly fair execution terminates, and at the end every unscoped
  buffer holds the last of these valuations — from which both the frame (no argument is ever written) and the result's
  value are read.
-/
import proofs.«166831_j64330020159907_2_alg».proof.Proof.FrameK.Region0
import proofs.«166831_j64330020159907_2_alg».proof.Proof.FrameK.Region1

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: the end. -/
abbrev W5 : Dev nD → Valuation τ sig (Elt F) := fun c => StableHlo.after hostOps2 (W4 m ρ c)

/-! ### No host operation and no region writes an argument -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 4).trans (((dat0 (V1 m ρ) c).arrAt_in 4 rfl _).trans (A_eq0 (V1 m ρ) c 4))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := (W4_arr m ρ c 2).trans (((dat1 (V3 m ρ) c).arrAt_in 2 rfl _).trans (A_eq1 (V3 m ρ) c 2))
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 as a segment: entered from every unscoped buffer at the contents before it, left at the contents after it. Its
    arrays are split out of the unscoped buffers and put back at what the pipeline leaves; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left at the contents after it. Its
    arrays are split out of the unscoped buffers and put back at what the pipeline leaves; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every unscoped buffer ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_all m ρ)

end Cert.Kernel.Frame

end
-- ==== Proof.FrameKI.Region0.lean ====
/-
  Region 0: the dequantisation kernel's frame half, at any float instance.

  The grid has 16 points; point t stages rows 256·t … 256·t + 255 of the code matrix, of the scales and zero points and of
  the row factors, and the whole vector of column factors; the body loads the five blocks whole, computes the dequantised
  256 × 4096 block as one pure term of them, and stores it whole into the output's staging buffer. So after the body the
  output buffer holds that term of the five input blocks, and the inputs' buffers are as they were.
-/
import proofs.«166831_j64330020159907_2_alg».proof.Proof.Gen.KernelIdeal.Launch
import proofs.«166831_j64330020159907_2_alg».proof.Proof.Gen.KernelIdeal.Skeleton
import proofs.«166831_j64330020159907_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, fetched there or not: where
    it is not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every point, fetched there or not: where
    it is not fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every point, fetched there or not: where
    it is not fetched the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every point, fetched there or not: where
    it is not fetched the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the array at every point, fetched there or not: where
    it is not fetched the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rA : Rect S256x4096 := Rect.unit (s := S256x4096) ![0, 0] S256x4096.size inb_S256x4096_S256x4096_0_0
abbrev rB : Rect S256x32 := Rect.unit (s := S256x32) ![0, 0] S256x32.size inb_S256x32_S256x32_0_0
abbrev rC : Rect S256 := Rect.unit (s := S256) ![0] S256.size inb_S256_S256_0
abbrev rD : Rect S4096 := Rect.unit (s := S4096) ![0] S4096.size inb_S4096_S4096_0

/-- The output's staging buffer after the body, from the five input blocks: its one store. -/
def out0_5 (x0 : Vec F S256x4096 .i32) (x1 x2 : Vec F S256x32 .f32) (x3 : Vec F S4096 .f32) (x4 : Vec F S256 .f32) : Vec F S256x4096 .bf16 :=
  View.canon [⟨rA, k0_pay1 (View.ld x0 rA) (View.ld x1 rB) (View.ld x2 rB) (View.ld x4 rC) (View.ld x3 rD)⟩]

/-- The store covers the buffer. -/
theorem cover0_5 (p0 : Vec F S256x4096 .bf16) (y : S256x4096.Idx) :
    ∃ pc ∈ ([⟨rA, p0⟩] : List (View.Piece (Elt F) S256x4096 .bf16)), y ∈ pc.1.set :=
  View.cover_of_tiled [⟨rA, p0⟩] S256x4096.size (by rfl) y

set_option maxHeartbeats 1000000 in
/-- The body on whole staging memrefs, the inputs' at their contents and the output's at anything, runs to the continuation
    holding the inputs' as they were and the output's at `out0_5` of them. -/
theorem sound_kernel0 (c : Dev nD) (E : Set ℕ) (i : grid0.Coords)
    (arg1 : Memref sig .tc .vmem S256x4096 .i32) (harg1 : arg1.IsWhole) (arg2 : Memref sig .tc .vmem S256x32 .f32) (harg2 : arg2.IsWhole)
    (arg3 : Memref sig .tc .vmem S256x32 .f32) (harg3 : arg3.IsWhole) (arg4 : Memref sig .tc .vmem S4096 .f32) (harg4 : arg4.IsWhole)
    (arg5 : Memref sig .tc .vmem S256 .f32) (harg5 : arg5.IsWhole) (arg6 : Memref sig .tc .vmem S256x4096 .bf16) (harg6 : arg6.IsWhole)
    (x0 : Vec F S256x4096 .i32) (x1 x2 : Vec F S256x32 .f32) (x3 : Vec F S4096 .f32) (x4 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__dequant_kernel i arg1 harg1 arg2 harg2 arg3 harg3 arg4 harg4 arg5 harg5 arg6 harg6) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core `c`: the arrays as the region finds them; after the body at point `t` each
    input's buffer at its block and the output's at `out0_5` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frame

end
-- ==== Proof.FrameKI.Kernel1.lean ====
/-
  Region 1: the matmul kernel's body, case by case, at any float instance.

  The grid is 8 × 2 × 8; the last coordinate l walks the reduction axis in eight steps of 512. The body keeps a
  1024 × 2048 accumulator in a scratch buffer that survives from one grid point to the next: at l = 0 it first
  stores zeros there; at every point it loads the accumulator, adds the product of the input block (rounded to the
  narrow format) with the weight block, and stores it back; at l = 7 it also stores the accumulator plus the
  bias row into the output's staging buffer. So there are three cases — first step, middle steps, last step —
  and in each the scratch ends at one pure term of the two input blocks and of what it held (zeros, at the first
  step), the output buffer is untouched except at the last step, and the inputs' buffers are as they were.
-/
import proofs.«166831_j64330020159907_2_alg».proof.Proof.Gen.KernelIdeal.Launch
import proofs.«166831_j64330020159907_2_alg».proof.Proof.Gen.KernelIdeal.Skeleton
import proofs.«166831_j64330020159907_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional's test, `l = 0`, as the kernel computes it from the grid coordinates. -/
abbrev cond1_0 (i : grid1.Coords) : Prop := (Scalar.cmpi .ne (Scalar.extui (Scalar.cmpi .eq (BitVec.ofNat 32 (i 2).val) 0#32)) 0#32) = 1#1
/-- The second conditional's test, `l = 7`. -/
abbrev cond1_1 (i : grid1.Coords) : Prop := k1_cond2 i = 1#1

theorem hz2 : (![0, 0] : Fin 2 → ℕ) = fun _ => 0 := by
  funext a; match a with | ⟨0, _⟩ => rfl | ⟨1, _⟩ => rfl
theorem hz1 : (![0] : Fin 1 → ℕ) = fun _ => 0 := by
  funext a; match a with | ⟨0, _⟩ => rfl

set_option maxHeartbeats 1000000 in
/-- FIRST STEP (`l = 0`, not the last): whatever the scratch held, it ends at the step's term over zeros; the output's
    buffer is handed back as found. -/
theorem sound_kernel1_A (c : Dev nD) (E : Set ℕ) (i : grid1.Coords)
    (arg3 : Memref sig .tc .vmem S1024x512 .f32) (harg3 : arg3.IsWhole) (arg4 : Memref sig .tc .vmem S2048x512 .bf16) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (x0 : Vec F S1024x512 .f32) (x1 : Vec F S2048x512 .bf16) (x2 : Vec F S2048 .f32) (o : Vec F S1024x2048 .f32) (hc0 : cond1_0 i) (hc1 : ¬ cond1_1 i) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare o ∗ owns (c : Thread nD τ) arg7 fullShare (k1_pay2 x0 (k1_pay1 (F := F)) x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  iexists _; isplitr
  swap; · iexact H4
  ipureintro
  rw [View.read_writes_eq_canon _ _ _ (fun y => ⟨_, List.mem_cons_self .., View.mem_set_unit_zero hz2 inb_S1024x2048_S1024x2048_0_0 y⟩),
    View.canon_cons_unit_zero hz2]
  sl_unfold_run_names
  rw [View.readCov_unit_zero _ hz2]
  simp only [View.readAt_eq_ld, View.ld_unit_zero (S := S1024x512) hz2, View.ld_unit_zero (S := S2048x512) hz2]

set_option maxHeartbeats 1000000 in
/-- MIDDLE STEPS (`l` neither 0 nor 7): the scratch goes from what it held to the step's term over that; the output's
    buffer is handed back as found. -/
theorem sound_kernel1_B (c : Dev nD) (E : Set ℕ) (i : grid1.Coords)
    (arg3 : Memref sig .tc .vmem S1024x512 .f32) (harg3 : arg3.IsWhole) (arg4 : Memref sig .tc .vmem S2048x512 .bf16) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (x0 : Vec F S1024x512 .f32) (x1 : Vec F S2048x512 .bf16) (x2 : Vec F S2048 .f32) (s o : Vec F S1024x2048 .f32) (hc0 : ¬ cond1_0 i) (hc1 : ¬ cond1_1 i) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare o ∗ owns (c : Thread nD τ) arg7 fullShare (k1_pay2 x0 s x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  iexists _; isplitr
  swap; · iexact H4
  ipureintro
  rw [View.read_writes_eq_canon _ _ _ (fun y => ⟨_, List.mem_cons_self .., View.mem_set_unit_zero hz2 inb_S1024x2048_S1024x2048_0_0 y⟩),
    View.canon_cons_unit_zero hz2]
  try sl_unfold_run_names
  simp only [View.readAt_eq_ld, View.ld_unit_zero (S := S1024x512) hz2, View.ld_unit_zero (S := S2048x512) hz2,
    View.ld_unit_zero (S := S1024x2048) hz2]

set_option maxHeartbeats 1000000 in
/-- LAST STEP (`l = 7`, not the first): the scratch as in the middle steps, and the output's buffer ends at the new
    accumulator plus the bias row. -/
theorem sound_kernel1_C (c : Dev nD) (E : Set ℕ) (i : grid1.Coords)
    (arg3 : Memref sig .tc .vmem S1024x512 .f32) (harg3 : arg3.IsWhole) (arg4 : Memref sig .tc .vmem S2048x512 .bf16) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (x0 : Vec F S1024x512 .f32) (x1 : Vec F S2048x512 .bf16) (x2 : Vec F S2048 .f32) (s : Vec F S1024x2048 .f32) (hc0 : ¬ cond1_0 i) (hc1 : cond1_1 i) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 s x1) x2) ∗ owns (c : Thread nD τ) arg7 fullShare (k1_pay2 x0 s x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self .., View.mem_set_unit_zero hz2 inb_S1024x2048_S1024x2048_0_0 y⟩),
      View.canon_cons_unit_zero hz2]
    try sl_unfold_run_names
    simp only [View.readCov_cons_toLoadRect, View.readAt_eq_ld, View.ld_unit_zero (S := S1024x512) hz2, View.ld_unit_zero (S := S2048x512) hz2,
      View.ld_unit_zero (S := S1024x2048) hz2, View.ld_unit_zero (S := S2048) hz1]
  iexists _; isplitr
  swap; · iexact H4
  ipureintro
  sl_unfold_run_names
  rw [View.read_writes_eq_canon _ _ _ (fun y => ⟨_, List.mem_cons_self .., View.mem_set_unit_zero hz2 inb_S1024x2048_S1024x2048_0_0 y⟩),
    View.canon_cons_unit_zero hz2]
  try sl_unfold_run_names
  simp only [View.readAt_eq_ld, View.ld_unit_zero (S := S1024x512) hz2, View.ld_unit_zero (S := S2048x512) hz2,
    View.ld_unit_zero (S := S1024x2048) hz2]

end Cert.KernelIdeal.Frame

end
-- ==== Proof.FrameKI.Region1.lean ====
/-
  Region 1: the matmul kernel's frame half, at any float instance.

  The 128 grid points are (i, j, l) in row-major order, so l is the point's number modulo 8. The accumulator scratch is
  carried from point to point: after point n it holds the step's term of the point's two input blocks over zeros when
  l = 0 and over what point n − 1 left otherwise. The output's staging buffer is stored only at l = 7, where it is also
  the only place it is written back; elsewhere it is handed back as found. The region's invariant is therefore: before
  the first point every scoped buffer that is no staging buffer at anything; afterwards the same with the scratch at the
  accumulator of the point before.
-/
import proofs.«166831_j64330020159907_2_alg».proof.Proof.FrameKI.Kernel1
import Idealize.ShloMosaic.Lib.Pipeline.RegionsLoop
import Idealize.ShloMosaic.Lib.Pipeline.FrameSuffix

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, fetched there or not: where
    it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every point, fetched there or not: where
    it is not fetched the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every point, fetched there or not: where
    it is not fetched the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditionals over the grid -/

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)
/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last reduction step the output is idle and not written back; on it, live. -/
theorem idleAt1_3 : ∀ t : Fin cfg1.N, ¬ cond1_1 (grid1.coords t) → cfg1.idle 3 (grid1.coords t) = true := by decide +kernel
theorem noFlush1_3 : ∀ t : Fin cfg1.N, ¬ cond1_1 (grid1.coords t) → (cfg1.win 3).flush t = false := by decide +kernel
theorem liveAt1_3 : ∀ t : Fin cfg1.N, cond1_1 (grid1.coords t) → cfg1.idle 3 (grid1.coords t) = false := by decide +kernel

/-! ## The carried accumulator -/

/-- The scratch operand: a whole scoped buffer of the kernel's own. -/
abbrev scM1 : Memref sig .tc .vmem S1024x2048 .f32 := Memref.whole cc1_scratch0

/-- What the scratch holds after the body at point `n`: the step's term of the point's two input blocks, over zeros at
    the first reduction step and over what the point before left otherwise. -/
def acc1 (c : Dev nD) : (n : ℕ) → n < cfg1.N → Vec F S1024x2048 .f32
  | 0, hn => k1_pay2 (iblk1 V c 0 ⟨0, hn⟩) (k1_pay1 (F := F)) (iblk1 V c 1 ⟨0, hn⟩)
  | n + 1, hn => k1_pay2 (iblk1 V c 0 ⟨n + 1, hn⟩)
      (if (n + 1) % 8 = 0 then (k1_pay1 (F := F)) else acc1 c n (Nat.lt_of_succ_lt hn)) (iblk1 V c 1 ⟨n + 1, hn⟩)

theorem acc1_first (c : Dev nD) (t : Fin cfg1.N) (h0 : t.val % 8 = 0) :
    acc1 V c t.val t.isLt = k1_pay2 (iblk1 V c 0 t) (k1_pay1 (F := F)) (iblk1 V c 1 t) := by
  obtain ⟨n, hn⟩ := t
  cases n with
  | zero => rfl
  | succ n => show k1_pay2 _ (if (n + 1) % 8 = 0 then _ else _) _ = _; rw [if_pos h0]

theorem acc1_later (c : Dev nD) (t : Fin cfg1.N) (h0 : ¬ t.val % 8 = 0) :
    acc1 V c t.val t.isLt = k1_pay2 (iblk1 V c 0 t) (acc1 V c (t.val - 1) (Nat.lt_of_le_of_lt (Nat.sub_le _ _) t.isLt)) (iblk1 V c 1 t) := by
  obtain ⟨n, hn⟩ := t
  cases n with
  | zero => exact absurd (Nat.zero_mod _) h0
  | succ n => show k1_pay2 _ (if (n + 1) % 8 = 0 then _ else _) _ = _; rw [if_neg h0]; rfl

/-- The scoped buffers that are neither a staging buffer of this call nor its scratch: the other call's staging buffers. -/
abbrev others1 (c : Dev nD) : sProp 𝕄 :=
  Pipeline.scopedRestBut (Ix := Unit) (Name := ℕ) (U := UR sig nD τ) (Lvl := ℕ) (Val := Elt F) spec1 c [cc1_scratch0]

/-- The class invariant with the scratch split out. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [scM1, owns_whole]; try rfl

/-- The region's invariant before position `n`. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' memrefs hold their blocks; the point's number modulo 8 says which case it is in; the
    invariant hands the body the scratch at what the point before left (at anything at the very first point) and takes it
    back at this point's accumulator; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  by_cases h0 : t.val % 8 = 0
  · have h1 : ¬ t.val % 8 = 7 := by omega
    have hc0 : cond1_0 (grid1.coords t) := (hcond1_0 t).mpr h0
    have hc1 : ¬ cond1_1 (grid1.coords t) := fun h => h1 ((hcond1_1 t).mp h)
    rw [Dat.leavesExact_idle (dat1 V c) 3 t (idleAt1_3 t hc1) (noFlush1_3 t hc1)]
    rw [acc1_first V c t h0]
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩, ⟨%d3, H3⟩⟩
      iapply (sound_kernel1_A c Set.univ (grid1.coords t) _ _ _ _ _ _ _ _ _ _ (iblk1 V c 0 t) (iblk1 V c 1 t) (iblk1 V c 2 t) _ hc0 hc1 _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩⟩
      iapply (sound_kernel1_A c Set.univ (grid1.coords t) _ _ _ _ _ _ _ _ _ _ (iblk1 V c 0 t) (iblk1 V c 1 t) (iblk1 V c 2 t) _ hc0 hc1 _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬ cond1_0 (grid1.coords t) := fun h => h0 ((hcond1_0 t).mp h)
    rw [acc1_later V c t h0]
    rw [PhiS1_castSucc V c t, PhiS1_pos V c _ _ hz]
    by_cases h1 : t.val % 8 = 7
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3, acc1_later V c t h0]
      iintro ⟨⟨⟨HS, Hoth⟩, Hg⟩, Ho, ⟨%d0, H0⟩, ⟨%d1, H1⟩, ⟨%d2, H2⟩, ⟨%d3, H3⟩⟩
      iapply (sound_kernel1_C c Set.univ (grid1.coords t) _ _ _ _ _ _ _ _ _ _ (iblk1 V c 0 t) (iblk1 V c 1 t) (iblk1 V c 2 t) _ hc0 hc1 _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hc1 : ¬ cond1_1 (grid1.coords t) := fun h => h1 ((hcond1_1 t).mp h)
      rw [Dat.leavesExact_idle (dat1 V c) 3 t (idleAt1_3 t hc1) (noFlush1_3 t hc1)]
      iintro ⟨⟨⟨HS, Hoth⟩, Hg⟩, Ho, ⟨%d0, H0⟩, ⟨%d1, H1⟩, ⟨%d2, H2⟩, ⟨%d3, H3⟩⟩
      iapply (sound_kernel1_B c Set.univ (grid1.coords t) _ _ _ _ _ _ _ _ _ _ (iblk1 V c 0 t) (iblk1 V c 1 t) (iblk1 V c 2 t) _ _ hc0 hc1 _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS, Hoth⟩, Hg⟩
  isplitl [HS Hoth]
  · isplitl [HS]; · iexists _; iexact HS
    iexact Hoth
  iexact Hg

end Region1

end Cert.KernelIdeal.Frame

end
-- ==== Proof.FrameKI.Run.lean ====
/-
  The run of the whole program, at any float instance: two host reshapes, the dequantisation region, a host reshape, the
  matmul region, a host reshape. The contents of every unscoped buffer are followed from the launch through the five
  segments: a host stretch applies its operations; a region leaves each of its arrays at what its pipeline's write-backs
  fold to and every other buffer as it found it. Every weakly fair execution terminates, and at the end every unscoped
  buffer holds the last of these valuations — from which both the frame (no argument is ever written) and the result's
  value are read.
-/
import proofs.«166831_j64330020159907_2_alg».proof.Proof.FrameKI.Region0
import proofs.«166831_j64330020159907_2_alg».proof.Proof.FrameKI.Region1

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: the end. -/
abbrev W5 : Dev nD → Valuation τ sig (Elt F) := fun c => StableHlo.after hostOps2 (W4 m ρ c)

/-! ### No host operation and no region writes an argument -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 4).trans (((dat0 (V1 m ρ) c).arrAt_in 4 rfl _).trans (A_eq0 (V1 m ρ) c 4))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := (W4_arr m ρ c 2).trans (((dat1 (V3 m ρ) c).arrAt_in 2 rfl _).trans (A_eq1 (V3 m ρ) c 2))
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 as a segment: entered from every unscoped buffer at the contents before it, left at the contents after it. Its
    arrays are split out of the unscoped buffers and put back at what the pipeline leaves; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left at the contents after it. Its
    arrays are split out of the unscoped buffers and put back at what the pipeline leaves; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every unscoped buffer ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_all m ρ)

end Cert.KernelIdeal.Frame

end
-- ==== Proof.Spec.lean ====
/-
  The specification both programs are compared against, over the extended reals.

  A weight matrix of 4096 × 4096 four-bit codes is dequantised group by group: the columns are cut into 32 groups of
  128, and row k of group g has its own scale and zero point, so the entry at (k, n) is
  ((q[k,n] − zero[k, n / 128]) · scale[k, n / 128]) · mu2[k] · mu1[n]. The layer's output at (b, s, k) is the
  inner product of input row (b, s) with weight row k, plus bias[k].
-/
import Idealize.ShloMosaic.PureOps.Ideal
import Idealize.ShloMosaic.Lib.ValueIdx

noncomputable section

namespace Cert.Spec

open Idealize.ShloMosaic Idealize.ShloMosaic.ValueIdx

/-- The quantisation group of column `n`: groups are 128 consecutive columns. -/
def grp (n : Fin 4096) : Fin 32 := ⟨n.val / 128, by omega⟩

/-- The dequantised weight at row `k`, column `n`: the integer code as a real, minus its group's zero point, times its
    group's scale, times the row factor, times the column factor — multiplied in this order. -/
def Wd (q : Vec Ideal ⟨2, ![4096, 4096]⟩ .i32) (sc ze : FVec Ideal ⟨3, ![4096, 32, 1]⟩ .f32)
    (mu1 mu2 : FVec Ideal ⟨1, ![4096]⟩ .f32) (k n : Fin 4096) : EReal :=
  (((FloatOps.sitofp (F := Ideal) .f32 (q (ix2 k n)) - ze (ix3 k (grp n) (0 : Fin 1))) * sc (ix3 k (grp n) (0 : Fin 1)))
    * mu2 (ix1 k)) * mu1 (ix1 n)

/-- The layer's output at batch `b`, position `s`, output feature `k`. -/
def Gc (x : FVec Ideal ⟨3, ![4, 2048, 4096]⟩ .f32) (q : Vec Ideal ⟨2, ![4096, 4096]⟩ .i32)
    (sc ze : FVec Ideal ⟨3, ![4096, 32, 1]⟩ .f32) (mu1 mu2 bias : FVec Ideal ⟨1, ![4096]⟩ .f32)
    (b : Fin 4) (s : Fin 2048) (k : Fin 4096) : EReal :=
  (∑ n : Fin 4096, x (ix3 b s n) * Wd q sc ze mu1 mu2 k n) + bias (ix1 k)

/-- The same as one array. -/
def G (x : FVec Ideal ⟨3, ![4, 2048, 4096]⟩ .f32) (q : Vec Ideal ⟨2, ![4096, 4096]⟩ .i32)
    (sc ze : FVec Ideal ⟨3, ![4096, 32, 1]⟩ .f32) (mu1 mu2 bias : FVec Ideal ⟨1, ![4096]⟩ .f32) :
    FVec Ideal ⟨3, ![4, 2048, 4096]⟩ .f32 :=
  fun i => Gc x q sc ze mu1 mu2 bias (i 0) (i 1) (i 2)

theorem G_apply (x : FVec Ideal ⟨3, ![4, 2048, 4096]⟩ .f32) (q : Vec Ideal ⟨2, ![4096, 4096]⟩ .i32)
    (sc ze : FVec Ideal ⟨3, ![4096, 32, 1]⟩ .f32) (mu1 mu2 bias : FVec Ideal ⟨1, ![4096]⟩ .f32)
    (b : Fin 4) (s : Fin 2048) (k : Fin 4096) :
    G x q sc ze mu1 mu2 bias (ix3 b s k) = Gc x q sc ze mu1 mu2 bias b s k := rfl

end Cert.Spec

end
-- ==== Proof.RefValue.lean ====
/-
  The reference side of the comparison, over the extended reals.

  The reference converts the 4096 × 4096 integer codes to reals, views each row as 32 groups of 128 columns, subtracts
  the group's zero point and multiplies by the group's scale (both stored once per row and group and repeated along
  the group's 128 columns), views the result as 4096 × 4096 again, multiplies row k by mu2[k] and column n by mu1[n],
  contracts the input's last axis with the weight's column axis, and adds bias[k] to every output row.

  Read at one output element (b, s, k) this is the sum over n of x[b, s, n] · W[k, n] plus bias[k], where W[k, n] is
  ((q[k, n] − zero[k, n / 128]) · scale[k, n / 128]) · mu2[k] · mu1[n]: the two changes of view are inverse to each
  other on indices, since column n of a row is position n % 128 of group n / 128, and (n / 128) · 128 + n % 128 = n.
  That is the specification's function (`Cert.Spec.G`), so the reference's run ends with its result array equal to
  `Cert.Spec.G` of its argument arrays, which it leaves unchanged.
-/
import proofs.«166831_j64330020159907_2_alg».proof.Defs
import proofs.«166831_j64330020159907_2_alg».proof.Proof.Gen.ReferenceIdeal.Read
import proofs.«166831_j64330020159907_2_alg».proof.Proof.Spec

noncomputable section

open Idealize.ShloMosaic Idealize.ShloMosaic.TcCoe Idealize.SL.Sem

namespace Cert.RefValue

open Cert.ReferenceIdeal Cert.ReferenceIdeal.Gen Cert.ReferenceIdeal.Value Cert.ReferenceIdeal.Read
open Idealize.ShloMosaic.ValueIdx Cert.Spec

/-! ## Indices: each stage's index function at literal coordinates -/

/-- The position of column `n` inside its group of 128 columns. -/
def rem (n : Fin 4096) : Fin 128 := ⟨n.val % 128, Nat.mod_lt _ (by decide)⟩

/-- Viewing a 4096 × 4096 array as 4096 × 32 × 128, entry (k, n) sits at (k, n / 128, n % 128): the flat position
    k · 4096 + n is (k · 32 + n / 128) · 128 + n % 128. -/
theorem idx6 (k n : Fin 4096) : idx_main_v6 (ix2 k n) = ix3 k (grp n) (rem n) := by
  have hk := k.isLt
  have hn := n.isLt
  funext a
  match a with
  | ⟨0, _⟩ => exact Fin.ext (by show (k.val * 4096 + n.val) / 4096 = k.val; omega)
  | ⟨1, _⟩ => exact Fin.ext (by show (k.val * 4096 + n.val) / 128 % 32 = n.val / 128; omega)
  | ⟨2, _⟩ => exact Fin.ext (by show (k.val * 4096 + n.val) % 128 = n.val % 128; omega)

/-- Viewing it back, entry (k, n / 128, n % 128) of the 4096 × 32 × 128 array is entry (k, n) of the 4096 × 4096 one. -/
theorem idx1 (k n : Fin 4096) : idx_main_v1 (ix3 k (grp n) (rem n)) = ix2 k n := by
  have hk := k.isLt
  have hn := n.isLt
  funext a
  match a with
  | ⟨0, _⟩ => exact Fin.ext (by show ((k.val * 32 + n.val / 128) * 128 + n.val % 128) / 4096 = k.val; omega)
  | ⟨1, _⟩ => exact Fin.ext (by show ((k.val * 32 + n.val / 128) * 128 + n.val % 128) % 4096 = n.val; omega)

/-- The zero points, stored once per row and group, are repeated along the group's 128 columns. -/
theorem idx2 (k : Fin 4096) (g : Fin 32) (r : Fin 128) : idx_main_v2 (ix3 k g r) = ix3 k g (0 : Fin 1) := by
  funext a
  match a with
  | ⟨0, _⟩ => rfl
  | ⟨1, _⟩ => rfl
  | ⟨2, _⟩ => rfl

/-- So are the scales. -/
theorem idx4 (k : Fin 4096) (g : Fin 32) (r : Fin 128) : idx_main_v4 (ix3 k g r) = ix3 k g (0 : Fin 1) := by
  funext a
  match a with
  | ⟨0, _⟩ => rfl
  | ⟨1, _⟩ => rfl
  | ⟨2, _⟩ => rfl

/-- The row factor, repeated along a row, is read at the row. -/
theorem idx78 (k n : Fin 4096) : idx_main_v7 (idx_main_v8 (ix2 k n)) = ix1 k := by
  funext a
  match a with
  | ⟨0, _⟩ => rfl

/-- The column factor, repeated along a column, is read at the column. -/
theorem idx1011 (k n : Fin 4096) : idx_main_v10 (idx_main_v11 (ix2 k n)) = ix1 n := by
  funext a
  match a with
  | ⟨0, _⟩ => rfl

/-- The bias, repeated over batch and position, is read at the output feature. -/
theorem idx1415 (b : Fin 4) (s : Fin 2048) (k : Fin 4096) : idx_main_v14 (idx_main_v15 (ix3 b s k)) = ix1 k := by
  funext a
  match a with
  | ⟨0, _⟩ => rfl

/-- Term `n` of the contraction for output (b, s, k) reads the input at (b, s, n) … -/
theorem lidx13 (b : Fin 4) (s : Fin 2048) (k n : Fin 4096) : lidx_main_v13 (ix3 b s k) n = ix3 b s n := by
  funext a
  match a with
  | ⟨0, _⟩ => rfl
  | ⟨1, _⟩ => rfl
  | ⟨2, _⟩ => rfl

/-- … and the weight at (k, n). -/
theorem ridx13 (b : Fin 4) (s : Fin 2048) (k n : Fin 4096) : ridx_main_v13 (ix3 b s k) n = ix2 k n := by
  funext a
  match a with
  | ⟨0, _⟩ => rfl
  | ⟨1, _⟩ => rfl

/-! ## Values -/

/-- The reference's dequantised weight at row `k`, column `n` is the specification's: the code as a real, minus its
    group's zero point, times its group's scale, times the row factor, times the column factor, in this order. -/
theorem v12_apply (q : Vec Ideal ⟨2, ![4096, 4096]⟩ .i32) (sc ze : FVec Ideal ⟨3, ![4096, 32, 1]⟩ .f32)
    (mu1 mu2 : FVec Ideal ⟨1, ![4096]⟩ .f32) (k n : Fin 4096) :
    val_main_v12 (F := Ideal) q sc ze mu1 mu2 (ix2 k n) = Wd q sc ze mu1 mu2 k n := by
  rw [val_main_v12_apply, val_main_v9_apply, val_main_v11_apply, val_main_v10_apply, idx1011, val_main_v8_apply,
    val_main_v7_apply, idx78, val_main_v6_apply, idx6, val_main_v5_apply, val_main_v3_apply, val_main_v4_apply, idx4,
    val_main_v2_apply, idx2, val_main_v1_apply, idx1, val_main_v0_apply]
  rfl

/-- The reference's last stage is the specification's array: at (b, s, k), the sum over n of x[b, s, n] · W[k, n], plus
    bias[k]. -/
theorem stage_eq (x : FVec Ideal ⟨3, ![4, 2048, 4096]⟩ .f32) (q : Vec Ideal ⟨2, ![4096, 4096]⟩ .i32)
    (sc ze : FVec Ideal ⟨3, ![4096, 32, 1]⟩ .f32) (mu1 mu2 bias : FVec Ideal ⟨1, ![4096]⟩ .f32) :
    val_main_v16 (F := Ideal) x q sc ze mu1 mu2 bias = G x q sc ze mu1 mu2 bias := by
  funext i
  obtain ⟨b, s, k, rfl⟩ : ∃ (b : Fin 4) (s : Fin 2048) (k : Fin 4096), i = ix3 b s k := ⟨i 0, i 1, i 2, eq_ix3 i⟩
  rw [G_apply, val_main_v16_apply, val_main_v13_apply, val_main_v15_apply, val_main_v14_apply, idx1415]
  unfold Gc
  refine congrArg (· + bias (ix1 k)) (Finset.sum_congr rfl fun n _ => ?_)
  rw [lidx13, ridx13, v12_apply]

/-- The term the reference's run ends at, as a function of the argument arrays, is the specification's array. -/
theorem result_eq (x : FVec Ideal ⟨3, ![4, 2048, 4096]⟩ .f32) (q : Vec Ideal ⟨2, ![4096, 4096]⟩ .i32)
    (sc ze : FVec Ideal ⟨3, ![4096, 32, 1]⟩ .f32) (mu1 mu2 bias : FVec Ideal ⟨1, ![4096]⟩ .f32) :
    addf (Host.dotGeneral dot_S4x2048x4096_S4096x4096_S4x2048x4096_2_1_01_0_n_n none (x) (mulf (mulf (shapeCast _ (mulf (subf (shapeCast _ (sitofp .f32 (q)) shapeCasts_S4096x4096_S4096x32x128) (broadcastInDim S4096x32x128 ![0, 1, 2] bcast_S4096x32x1_S4096x32x128_0_1_2 (ze))) (broadcastInDim S4096x32x128 ![0, 1, 2] bcast_S4096x32x1_S4096x32x128_0_1_2 (sc))) shapeCasts_S4096x32x128_S4096x4096) (broadcastInDim S4096x4096 ![0, 1] bcast_S4096x1_S4096x4096_0_1 (broadcastInDim S4096x1 ![0] bcast_S4096_S4096x1_0 (mu2)))) (broadcastInDim S4096x4096 ![0, 1] bcast_S1x4096_S4096x4096_0_1 (broadcastInDim S1x4096 ![1] bcast_S4096_S1x4096_1 (mu1))))) (broadcastInDim S4x2048x4096 ![0, 1, 2] bcast_S1x1x4096_S4x2048x4096_0_1_2 (broadcastInDim S1x1x4096 ![2] bcast_S4096_S1x1x4096_2 (bias)))
      = G x q sc ze mu1 mu2 bias :=
  (val_main_v16_eq (F := Ideal) x q sc ze mu1 mu2 bias).trans (stage_eq x q sc ze mu1 mu2 bias)

/-! ## The run -/

/-- From any memory with zero counters every weakly fair execution of the reference terminates with its result array
    at the specification's function of the launch contents of its argument arrays, and the arguments unchanged. -/
theorem run_G (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
        r.2.mem ((c.tc : Thread Cert.ReferenceIdeal.nD Cert.ReferenceIdeal.τ).loc Cert.ReferenceIdeal.main_v16) = Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run (Cert.ReferenceIdeal.defs (F := Ideal)) _ _).mono
    (fun _ h c => ⟨(h c).1.trans (result_eq _ _ _ _ _ _ _), (h c).2⟩)
    (Cert.ReferenceIdeal.Value.run (F := Ideal) m' ρ')

/-- The reference runs and leaves its argument arrays unchanged. -/
theorem frame [hR : Cert.ReferenceIdeal.Facts] [hP : Cert.Pre_finite_inputs.Facts] : Cert.frame_ReferenceIdeal :=
  fun m ρ _ =>
    (θ_run (Cert.ReferenceIdeal.defs (F := Ideal)) _ _).mono (fun _ h c => (h c).2)
      (Cert.ReferenceIdeal.Value.run (F := Ideal) m ρ)

end Cert.RefValue

end
-- ==== Proof.LibRowQuant.lean ====
/-
  Row-wise quantize–dequantize, read at an index, at the ideal (extended-real) values.

  General lemmas, independent of any program:
  * a minimum / maximum reduction over the LAST axis of a rank-2 or rank-3 array — a kernel's
    `vector.multi_reduction` or a host `stablehlo.reduce` — is, at a row, the fold of `min` / `max` from the initial value
    over that row's entries (in any order: `min` and `max` commute and associate);
  * the keepdims column forms of the layout operations: a vector [a] cast to a column [a, 1], and a column [a, 1]
    broadcast over the columns of [a, b];
  * the asymmetric quantize–dequantize step `qdq`: with `scale = (vmax − vmin) / levels` and
    `zero = zlo − round (vmin / scale)`, an entry `x` goes to
    `(clamp (round (x / scale) + zero) − zero) · scale`; and the vector program computing it row by row
    (`qdqVec`) read at an entry (`qdqVec_apply`).
-/
import Idealize.ShloMosaic.PureOps.Ideal.Laws
import Idealize.ShloMosaic.Lib.ValueIdx
import Idealize.ShloMosaic.Lib.Pipeline.Value

noncomputable section

namespace Cert.RowQuant

open Idealize.ShloMosaic Idealize.ShloMosaic.ValueIdx

/-! ## The reduced index with the last coordinate put back -/

theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

theorem lift_row3 {a b d : ℕ} (h : (⟨3, ![a, b, d]⟩ : Shape).Reduces [2] (⟨2, ![a, b]⟩ : Shape)) (p : Fin a) (q : Fin b)
    (k : Fin ((⟨3, ![a, b, d]⟩ : Shape).size 2)) : h.lift (ix2 p q) k = ix3 p q (⟨k.val, k.isLt⟩ : Fin d) := by
  funext c; apply Fin.ext
  fin_cases c <;> rfl

/-! ## Minimum and maximum over the last axis, as folds over the row -/

variable {φ : FTy}

/-- A `vector.multi_reduction <minimumf>` over one axis: the fold of `min` from the accumulator's value over that
    axis's coordinates. -/
theorem multiReduction_minimumf_single {s t : Shape} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

theorem kernel_rowMin {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_single]
  have hf : (src ∘ h.lift (ix1 r)) = fun k : Fin b => src (ix2 r k) := funext fun k => congrArg src (lift_row h r k)
  exact congrArg (fun f => Finset.fold min (Ideal.ofBits φ acc) f (Finset.univ : Finset (Fin b))) hf

theorem kernel_rowMax {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  have hf : (src ∘ h.lift (ix1 r)) = fun k : Fin b => src (ix2 r k) := funext fun k => congrArg src (lift_row h r k)
  exact congrArg (fun f => Finset.fold max (Ideal.ofBits φ acc) f (Finset.univ : Finset (Fin b))) hf

/-- The host's reduce with a minimum body over the columns of a matrix, at row `r`. -/
theorem host_rowMin {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.minimumf x init h' hu (ix1 r)
      = (Finset.univ : Finset (Fin b)).fold min (init (Shape.Idx.first hu)) (fun k => x (ix2 r k)) := by
  rw [Host.reduce_eq_fold_single FloatOps.minimumf x _ h' h hu]
  have hf : (x ∘ h.lift (ix1 r)) = fun k : Fin b => x (ix2 r k) := funext fun k => congrArg x (lift_row h r k)
  exact congrArg (fun f => Finset.fold min (init (Shape.Idx.first hu)) f (Finset.univ : Finset (Fin b))) hf

theorem host_rowMax {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x _ h' h hu]
  have hf : (x ∘ h.lift (ix1 r)) = fun k : Fin b => x (ix2 r k) := funext fun k => congrArg x (lift_row h r k)
  exact congrArg (fun f => Finset.fold max (init (Shape.Idx.first hu)) f (Finset.univ : Finset (Fin b))) hf

/-- The same over the last axis of a rank-3 array, at `(p, q)`. -/
theorem host_rowMin3 {a b d : ℕ} {u : Shape} (x : FVec Ideal ⟨3, ![a, b, d]⟩ φ) (init : u.Idx → Ideal φ)
    (h' : (⟨3, ![a, b, d]⟩ : Shape).ReducesTo [2] (⟨2, ![a, b]⟩ : Shape))
    (h : (⟨3, ![a, b, d]⟩ : Shape).Reduces [2] (⟨2, ![a, b]⟩ : Shape)) (hu : 0 < u.numel) (p : Fin a) (q : Fin b) :
    Host.reduce FloatOps.minimumf x init h' hu (ix2 p q)
      = (Finset.univ : Finset (Fin d)).fold min (init (Shape.Idx.first hu)) (fun k => x (ix3 p q k)) := by
  rw [Host.reduce_eq_fold_single FloatOps.minimumf x _ h' h hu]
  have hf : (x ∘ h.lift (ix2 p q)) = fun k : Fin d => x (ix3 p q k) := funext fun k => congrArg x (lift_row3 h p q k)
  exact congrArg (fun f => Finset.fold min (init (Shape.Idx.first hu)) f (Finset.univ : Finset (Fin d))) hf

theorem host_rowMax3 {a b d : ℕ} {u : Shape} (x : FVec Ideal ⟨3, ![a, b, d]⟩ φ) (init : u.Idx → Ideal φ)
    (h' : (⟨3, ![a, b, d]⟩ : Shape).ReducesTo [2] (⟨2, ![a, b]⟩ : Shape))
    (h : (⟨3, ![a, b, d]⟩ : Shape).Reduces [2] (⟨2, ![a, b]⟩ : Shape)) (hu : 0 < u.numel) (p : Fin a) (q : Fin b) :
    Host.reduce FloatOps.maximumf x init h' hu (ix2 p q)
      = (Finset.univ : Finset (Fin d)).fold max (init (Shape.Idx.first hu)) (fun k => x (ix3 p q k)) := by
  rw [Host.reduce_eq_fold_single FloatOps.maximumf x _ h' h hu]
  have hf : (x ∘ h.lift (ix2 p q)) = fun k : Fin d => x (ix3 p q k) := funext fun k => congrArg x (lift_row3 h p q k)
  exact congrArg (fun f => Finset.fold max (init (Shape.Idx.first hu)) f (Finset.univ : Finset (Fin d))) hf

/-! ## The keepdims column forms -/

variable {α : Type}

/-- An `[a]` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The quantize–dequantize step -/

/-- One entry `x` of a row whose least and greatest entries are `vmin` and `vmax`, quantized to the integer grid of step
    `scale = (vmax − vmin) / lvl` shifted by `zero = zlo − round (vmin / scale)`, clamped to `[clo, chi]`, and mapped back. -/
def qdq (lvl zlo clo chi vmin vmax x : EReal) : EReal :=
  (min chi (max clo (Ideal.liftRound Ideal.roundHalfEven (Ideal.div x (Ideal.div (vmax - vmin) lvl))
        + (zlo - Ideal.liftRound Ideal.roundHalfEven (Ideal.div vmin (Ideal.div (vmax - vmin) lvl)))))
      - (zlo - Ideal.liftRound Ideal.roundHalfEven (Ideal.div vmin (Ideal.div (vmax - vmin) lvl))))
    * Ideal.div (vmax - vmin) lvl

/-- The vector program: the rows' minima `A` and maxima `B` as columns, the scale and the zero point as columns, both
    broadcast over the row, the entries quantized, clamped and mapped back. -/
def qdqVec {a b : ℕ} (hsc : (⟨1, ![a]⟩ : Shape).ShapeCasts ⟨2, ![a, 1]⟩) (hbc : (⟨2, ![a, 1]⟩ : Shape).Broadcasts ⟨2, ![a, b]⟩)
    (lvl zlo clo chi : Ideal .f32) (A B : FVec Ideal ⟨1, ![a]⟩ .f32) (x : FVec Ideal ⟨2, ![a, b]⟩ .f32) :
    FVec Ideal ⟨2, ![a, b]⟩ .f32 :=
  have v2 : FVec Ideal ⟨2, ![a, 1]⟩ .f32 := shapeCast ⟨2, ![a, 1]⟩ A hsc
  have v4 : FVec Ideal ⟨2, ![a, 1]⟩ .f32 := shapeCast ⟨2, ![a, 1]⟩ B hsc
  have v7 : FVec Ideal ⟨2, ![a, 1]⟩ .f32 := divf (subf v4 v2) (broadcast ⟨2, ![a, 1]⟩ lvl)
  have v11 : FVec Ideal ⟨2, ![a, 1]⟩ .f32 := subf (broadcast ⟨2, ![a, 1]⟩ zlo) (roundeven (divf v2 v7))
  have v12 : FVec Ideal ⟨2, ![a, b]⟩ .f32 := broadcastTo ⟨2, ![a, b]⟩ v7 hbc
  have v15 : FVec Ideal ⟨2, ![a, b]⟩ .f32 := broadcastTo ⟨2, ![a, b]⟩ v11 hbc
  mulf (subf (minimumf (broadcast ⟨2, ![a, b]⟩ chi) (maximumf (broadcast ⟨2, ![a, b]⟩ clo) (addf (roundeven (divf x v12)) v15))) v15) v12

theorem qdqVec_apply {a b : ℕ} (hsc : (⟨1, ![a]⟩ : Shape).ShapeCasts ⟨2, ![a, 1]⟩) (hbc : (⟨2, ![a, 1]⟩ : Shape).Broadcasts ⟨2, ![a, b]⟩)
    (lvl zlo clo chi : Ideal .f32) (A B : FVec Ideal ⟨1, ![a]⟩ .f32) (x : FVec Ideal ⟨2, ![a, b]⟩ .f32) (r : Fin a) (q : Fin b) :
    qdqVec hsc hbc lvl zlo clo chi A B x (ix2 r q) = qdq lvl zlo clo chi (A (ix1 r)) (B (ix1 r)) (x (ix2 r q)) := by
  unfold qdqVec
  show (min chi (max clo (Ideal.liftRound Ideal.roundHalfEven (Ideal.div (x (ix2 r q)) (broadcastTo ⟨2, ![a, b]⟩ _ hbc (ix2 r q)))
        + broadcastTo ⟨2, ![a, b]⟩ _ hbc (ix2 r q))) - broadcastTo ⟨2, ![a, b]⟩ _ hbc (ix2 r q)) * broadcastTo ⟨2, ![a, b]⟩ _ hbc (ix2 r q) = _
  rw [broadcastTo_a1_ab_apply, broadcastTo_a1_ab_apply]
  show (min chi (max clo (Ideal.liftRound Ideal.roundHalfEven (Ideal.div (x (ix2 r q))
          (Ideal.div (shapeCast ⟨2, ![a, 1]⟩ B hsc (ix2 r (0 : Fin 1)) - shapeCast ⟨2, ![a, 1]⟩ A hsc (ix2 r (0 : Fin 1))) lvl))
        + (zlo - Ideal.liftRound Ideal.roundHalfEven (Ideal.div (shapeCast ⟨2, ![a, 1]⟩ A hsc (ix2 r (0 : Fin 1)))
            (Ideal.div (shapeCast ⟨2, ![a, 1]⟩ B hsc (ix2 r (0 : Fin 1)) - shapeCast ⟨2, ![a, 1]⟩ A hsc (ix2 r (0 : Fin 1))) lvl)))))
      - (zlo - Ideal.liftRound Ideal.roundHalfEven (Ideal.div (shapeCast ⟨2, ![a, 1]⟩ A hsc (ix2 r (0 : Fin 1)))
            (Ideal.div (shapeCast ⟨2, ![a, 1]⟩ B hsc (ix2 r (0 : Fin 1)) - shapeCast ⟨2, ![a, 1]⟩ A hsc (ix2 r (0 : Fin 1))) lvl))))
      * Ideal.div (shapeCast ⟨2, ![a, 1]⟩ B hsc (ix2 r (0 : Fin 1)) - shapeCast ⟨2, ![a, 1]⟩ A hsc (ix2 r (0 : Fin 1))) lvl = _
  rw [shapeCast_a_a1_apply, shapeCast_a_a1_apply]
  rfl

/-- The same step spelt with the host's operations (the host's quotient and rounding are the kernel's at the ideal values). -/
theorem qdq_host (lvl zlo clo chi A B X : Ideal .f32) :
    FloatOps.mulf
        (FloatOps.subf
          (FloatOps.minimumf chi (FloatOps.maximumf clo
            (FloatOps.addf (FloatOps.hostUnary .roundeven (FloatOps.hostDivf X (FloatOps.hostDivf (FloatOps.subf B A) lvl)))
              (FloatOps.subf zlo (FloatOps.hostUnary .roundeven (FloatOps.hostDivf A (FloatOps.hostDivf (FloatOps.subf B A) lvl)))))))
          (FloatOps.subf zlo (FloatOps.hostUnary .roundeven (FloatOps.hostDivf A (FloatOps.hostDivf (FloatOps.subf B A) lvl)))))
        (FloatOps.hostDivf (FloatOps.subf B A) lvl)
      = qdq lvl zlo clo chi A B X := rfl

end Cert.RowQuant

end
-- ==== Proof.Payload.lean ====
/-
  The two kernels' stored values, entry by entry, over the extended reals.

  The dequantisation kernel stores, at row `p` and column `n` of a block, the code as a real minus its group's zero
  point, times its group's scale, times the row factor, times the column factor (`pay1_apply`); the columns' groups
  come from reading the block as `[rows, 32, 128]`. The matmul kernel's accumulator starts at zero (`pay1_zero`),
  gains at each reduction step the inner product of an input row with a weight row (`pay2_apply`), and on the last
  step the bias is added (`pay3_apply`). Last, the program's three array reshapes read at an index.
-/
import proofs.«166831_j64330020159907_2_alg».proof.Proof.Gen.KernelIdeal.Skeleton
import proofs.«166831_j64330020159907_2_alg».proof.Proof.Spec
import proofs.«166831_j64330020159907_2_alg».proof.Proof.LibRowQuant
import Idealize.ShloMosaic.Lib.ValueIdx
import Idealize.ShloMosaic.Lib.ValueLayout
import Idealize.ShloMosaic.Lib.Pipeline.Value
import Idealize.ShloMosaic.PureOps.Ideal.Laws

noncomputable section

namespace Cert.Payload

open Idealize.ShloMosaic Idealize.ShloMosaic.ValueIdx Cert.KernelIdeal Cert.KernelIdeal.Gen

/-! ## Layout operations read at an index: a trailing unit axis, and 4096 columns cut into 32 groups of 128 -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b, 1]` array broadcast over `[a, b, c]` reads, at `(i, j, r)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (r : Fin c) :
    broadcastTo ⟨3, ![a, b, c]⟩ v h (ix3 i j r) = v (ix3 i j (0 : Fin 1)) := by
  refine broadcastTo_apply v h (ix3 i j r) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 4096]` array cast to `[a, 32, 128]` reads, at `(i, g, r)`, the operand at `(i, n)` with `n = g * 128 + r`. -/
theorem shapeCast_split_apply {a : ℕ} (x : (⟨2, ![a, 4096]⟩ : Shape).Idx → α)
    (h : (⟨2, ![a, 4096]⟩ : Shape).ShapeCasts ⟨3, ![a, 32, 128]⟩) (i : Fin a) (g : Fin 32) (r : Fin 128) (n : Fin 4096)
    (hn : n.val = g.val * 128 + r.val) :
    shapeCast ⟨3, ![a, 32, 128]⟩ x h (ix3 i g r) = x (ix2 i n) :=
  shapeCast_apply x h _ _ (by
    rw [Shape.rowMajor_val_three, Shape.rowMajor_val_two]
    show i.val * 4096 + n.val = (i.val * 32 + g.val) * 128 + r.val
    omega)

/-- An `[a, 32, 128]` array cast to `[a, 4096]` reads, at `(i, n)` with `n = g * 128 + r`, the operand at `(i, g, r)`. -/
theorem shapeCast_merge_apply {a : ℕ} (x : (⟨3, ![a, 32, 128]⟩ : Shape).Idx → α)
    (h : (⟨3, ![a, 32, 128]⟩ : Shape).ShapeCasts ⟨2, ![a, 4096]⟩) (i : Fin a) (n : Fin 4096) (g : Fin 32) (r : Fin 128)
    (hn : n.val = g.val * 128 + r.val) :
    shapeCast ⟨2, ![a, 4096]⟩ x h (ix2 i n) = x (ix3 i g r) :=
  shapeCast_apply x h _ _ (by
    rw [Shape.rowMajor_val_three, Shape.rowMajor_val_two]
    show (i.val * 32 + g.val) * 128 + r.val = i.val * 4096 + n.val
    omega)

end Layout

/-! ## The dequantisation kernel's stored value at an entry -/

/-- Column `n` is column `n % 128` of group `n / 128`. -/
theorem col_split (n : Fin 4096) :
    n.val = (Cert.Spec.grp n).val * 128 + (⟨n.val % 128, Nat.mod_lt _ (by decide)⟩ : Fin 128).val := by
  show n.val = n.val / 128 * 128 + n.val % 128
  omega

/-- The dequantised entry at row `p`, column `n` of a block: the code as a real, minus its group's zero point, times its
    group's scale, times the row factor, times the column factor. -/
theorem pay1_apply (v0 : Vec Ideal S256x4096 .i32) (v3 v6 : Vec Ideal S256x32 .f32) (v14 : Vec Ideal S256 .f32)
    (v18 : Vec Ideal S4096 .f32) (p : Fin 256) (n : Fin 4096) :
    k0_pay1 (F := Ideal) v0 v3 v6 v14 v18 (ix2 p n)
      = (((FloatOps.sitofp (F := Ideal) .f32 (v0 (ix2 p n)) - v6 (ix2 p (Cert.Spec.grp n))) * v3 (ix2 p (Cert.Spec.grp n)))
          * v14 (ix1 p)) * v18 (ix1 n) := by
  unfold k0_pay1
  rw [shapeCast_self, shapeCast_self]
  show (shapeCast S256x4096
          (mulf (F := Ideal)
            (subf (F := Ideal) (shapeCast S256x32x128 (sitofp (F := Ideal) .f32 v0) shapeCasts_S256x4096_S256x32x128)
              (broadcastTo S256x32x128 (shapeCast S256x32x1 v6 shapeCasts_S256x32_S256x32x1) broadcasts_S256x32x1_S256x32x128))
            (broadcastTo S256x32x128 (shapeCast S256x32x1 v3 shapeCasts_S256x32_S256x32x1) broadcasts_S256x32x1_S256x32x128))
          shapeCasts_S256x32x128_S256x4096 (ix2 p n)
        * broadcastTo S256x4096 (shapeCast S256x1 v14 shapeCasts_S256_S256x1) broadcasts_S256x1_S256x4096 (ix2 p n))
      * broadcastTo S256x4096 (shapeCast S1x4096 v18 shapeCasts_S4096_S1x4096) broadcasts_S1x4096_S256x4096 (ix2 p n) = _
  rw [broadcastTo_1b_ab_apply, shapeCast_a_1a_apply, RowQuant.broadcastTo_a1_ab_apply, RowQuant.shapeCast_a_a1_apply,
    shapeCast_merge_apply _ _ p n (Cert.Spec.grp n) ⟨n.val % 128, Nat.mod_lt _ (by decide)⟩ (col_split n)]
  show ((shapeCast S256x32x128 (sitofp (F := Ideal) .f32 v0) shapeCasts_S256x4096_S256x32x128
            (ix3 p (Cert.Spec.grp n) ⟨n.val % 128, Nat.mod_lt _ (by decide)⟩)
          - broadcastTo S256x32x128 (shapeCast S256x32x1 v6 shapeCasts_S256x32_S256x32x1) broadcasts_S256x32x1_S256x32x128
              (ix3 p (Cert.Spec.grp n) ⟨n.val % 128, Nat.mod_lt _ (by decide)⟩))
        * broadcastTo S256x32x128 (shapeCast S256x32x1 v3 shapeCasts_S256x32_S256x32x1) broadcasts_S256x32x1_S256x32x128
            (ix3 p (Cert.Spec.grp n) ⟨n.val % 128, Nat.mod_lt _ (by decide)⟩))
      * v14 (ix1 p) * v18 (ix1 n) = _
  rw [broadcastTo_ab1_abc_apply, broadcastTo_ab1_abc_apply, shapeCast_ab_ab1_apply, shapeCast_ab_ab1_apply,
    shapeCast_split_apply _ _ p (Cert.Spec.grp n) ⟨n.val % 128, Nat.mod_lt _ (by decide)⟩ n (col_split n)]
  rfl

/-! ## The matmul kernel's first and last stored values -/

/-- The accumulator's first value: zero everywhere. -/
theorem pay1_zero (p : Fin 1024) (q : Fin 2048) : k1_pay1 (F := Ideal) (ix2 p q) = 0 := by
  unfold k1_pay1
  rw [shapeCast_self]
  exact Ideal.ofBits_zero_f32

/-- The last step's stored value at an entry: the accumulator's entry plus the bias at its column. -/
theorem pay3_apply (a : Vec Ideal S1024x2048 .f32) (b : Vec Ideal S2048 .f32) (p : Fin 1024) (q : Fin 2048) :
    k1_pay3 (F := Ideal) a b (ix2 p q) = a (ix2 p q) + b (ix1 q) := by
  unfold k1_pay3
  show a (ix2 p q)
      + broadcastTo S1024x2048 (shapeCast S1x2048 b shapeCasts_S2048_S1x2048) broadcasts_S1x2048_S1024x2048 (ix2 p q) = _
  rw [broadcastTo_1b_ab_apply, shapeCast_a_1a_apply]

/-! ## The matmul kernel's contraction: operand indices -/

/-- The left operand's row is the output's row. -/
theorem lhs_0 (i : S1024x2048.Idx) (c : dot_S1024x512_S2048x512_S1024x2048_1_1_0_0_n_n.contr.Idx) :
    (dot_S1024x512_S2048x512_S1024x2048_1_1_0_0_n_n.lhsIdx i c 0).val = (i 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl

/-- The left operand's column is the contraction coordinate. -/
theorem lhs_1 (i : S1024x2048.Idx) (c : dot_S1024x512_S2048x512_S1024x2048_1_1_0_0_n_n.contr.Idx) :
    (dot_S1024x512_S2048x512_S1024x2048_1_1_0_0_n_n.lhsIdx i c 1).val = (c ⟨0, by decide⟩).val :=
  dot_S1024x512_S2048x512_S1024x2048_1_1_0_0_n_n.lhsIdx_val_of_single rfl i c

/-- The right operand's row is the output's column. -/
theorem rhs_0 (i : S1024x2048.Idx) (c : dot_S1024x512_S2048x512_S1024x2048_1_1_0_0_n_n.contr.Idx) :
    (dot_S1024x512_S2048x512_S1024x2048_1_1_0_0_n_n.rhsIdx i c 0).val = (i 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl

/-- The right operand's column is the contraction coordinate. -/
theorem rhs_1 (i : S1024x2048.Idx) (c : dot_S1024x512_S2048x512_S1024x2048_1_1_0_0_n_n.contr.Idx) :
    (dot_S1024x512_S2048x512_S1024x2048_1_1_0_0_n_n.rhsIdx i c 1).val = (c ⟨0, by decide⟩).val :=
  dot_S1024x512_S2048x512_S1024x2048_1_1_0_0_n_n.rhsIdx_val_of_single rfl i c

/-- The accumulating step at an entry: the accumulator's entry plus the inner product of the input block's row `p` with
    the weight block's row `q` (the weight block is contracted along its second axis). -/
theorem pay2_apply (x : Vec Ideal S1024x512 .f32) (s : Vec Ideal S1024x2048 .f32) (w : Vec Ideal S2048x512 .bf16)
    (p : Fin 1024) (q : Fin 2048) :
    k1_pay2 (F := Ideal) x s w (ix2 p q) = s (ix2 p q) + ∑ k : Fin 512, x (ix2 p k) * w (ix2 q k) := by
  unfold k1_pay2
  rw [shapeCast_self, shapeCast_self, shapeCast_self]
  show s (ix2 p q) + FloatOps.matmul (F := Ideal) dot_S1024x512_S2048x512_S1024x2048_1_1_0_0_n_n none
      (truncf (F := Ideal) .bf16 x bitsLt_bf16_f32) w (constant S1024x2048 .f32 0x00000000#32) (ix2 p q) = _
  rw [Ideal.matmul_constant_zero_apply,
    ← Equiv.sum_comp (contrEquiv1 dot_S1024x512_S2048x512_S1024x2048_1_1_0_0_n_n 512 rfl rfl).symm]
  refine congrArg (s (ix2 p q) + ·) (Finset.sum_congr rfl fun k _ => ?_)
  have hk := contrEquiv1_symm_val dot_S1024x512_S2048x512_S1024x2048_1_1_0_0_n_n 512 rfl rfl k
  have el : dot_S1024x512_S2048x512_S1024x2048_1_1_0_0_n_n.lhsIdx (ix2 p q)
      ((contrEquiv1 dot_S1024x512_S2048x512_S1024x2048_1_1_0_0_n_n 512 rfl rfl).symm k) = ix2 p k :=
    funext fun a => Fin.ext (by
      match a with
      | ⟨0, _⟩ => exact lhs_0 _ _
      | ⟨1, _⟩ => exact (lhs_1 _ _).trans hk)
  have er : dot_S1024x512_S2048x512_S1024x2048_1_1_0_0_n_n.rhsIdx (ix2 p q)
      ((contrEquiv1 dot_S1024x512_S2048x512_S1024x2048_1_1_0_0_n_n 512 rfl rfl).symm k) = ix2 q k :=
    funext fun a => Fin.ext (by
      match a with
      | ⟨0, _⟩ => exact rhs_0 _ _
      | ⟨1, _⟩ => exact (rhs_1 _ _).trans hk)
  rw [el, er]
  rfl

/-! ## The program's three array reshapes read at an index -/

/-- The scales (or zero points) `[4096, 32, 1]` reshaped to `[4096, 32]`: entry `(k, g)` is entry `(k, g, 0)`. -/
theorem reshape_drop_unit_apply (v : FVec Ideal ⟨3, ![4096, 32, 1]⟩ .f32)
    (h : (⟨3, ![4096, 32, 1]⟩ : Shape).ShapeCasts ⟨2, ![4096, 32]⟩) (k : Fin 4096) (g : Fin 32) :
    shapeCast ⟨2, ![4096, 32]⟩ v h (ix2 k g) = v (ix3 k g (0 : Fin 1)) :=
  shapeCast_ab1_ab_apply v h k g

/-- The input `[4, 2048, 4096]` reshaped to `[8192, 4096]`: row `r` is position `r % 2048` of batch `r / 2048`. -/
theorem reshape_rows_apply (x : FVec Ideal ⟨3, ![4, 2048, 4096]⟩ .f32)
    (h : (⟨3, ![4, 2048, 4096]⟩ : Shape).ShapeCasts ⟨2, ![8192, 4096]⟩) (r : Fin 8192) (n : Fin 4096) :
    shapeCast ⟨2, ![8192, 4096]⟩ x h (ix2 r n)
      = x (ix3 (⟨r.val / 2048, by have := r.isLt; omega⟩ : Fin 4) (⟨r.val % 2048, Nat.mod_lt _ (by decide)⟩ : Fin 2048) n) :=
  shapeCast_apply x h _ _ (by
    rw [Shape.rowMajor_val_three, Shape.rowMajor_val_two]
    show (r.val / 2048 * 2048 + r.val % 2048) * 4096 + n.val = r.val * 4096 + n.val
    omega)

/-- The same with the row given as `b * 2048 + s`. -/
theorem reshape_rows_apply_of_eq (x : FVec Ideal ⟨3, ![4, 2048, 4096]⟩ .f32)
    (h : (⟨3, ![4, 2048, 4096]⟩ : Shape).ShapeCasts ⟨2, ![8192, 4096]⟩) (r : Fin 8192) (n : Fin 4096)
    (b : Fin 4) (s : Fin 2048) (hr : r.val = b.val * 2048 + s.val) :
    shapeCast ⟨2, ![8192, 4096]⟩ x h (ix2 r n) = x (ix3 b s n) :=
  shapeCast_apply x h _ _ (by
    rw [Shape.rowMajor_val_three, Shape.rowMajor_val_two]
    show (b.val * 2048 + s.val) * 4096 + n.val = r.val * 4096 + n.val
    omega)

/-- The result `[8192, 4096]` reshaped to `[4, 2048, 4096]`: entry `(b, s, k)` is row `b * 2048 + s`, column `k`. -/
theorem reshape_unrows_apply (y : FVec Ideal ⟨2, ![8192, 4096]⟩ .f32)
    (h : (⟨2, ![8192, 4096]⟩ : Shape).ShapeCasts ⟨3, ![4, 2048, 4096]⟩) (b : Fin 4) (s : Fin 2048) (k : Fin 4096) :
    shapeCast ⟨3, ![4, 2048, 4096]⟩ y h (ix3 b s k)
      = y (ix2 (⟨b.val * 2048 + s.val, by have := b.isLt; have := s.isLt; omega⟩ : Fin 8192) k) :=
  shapeCast_apply y h _ _ (by
    rw [Shape.rowMajor_val_three, Shape.rowMajor_val_two]
    show (b.val * 2048 + s.val) * 4096 + k.val = (b.val * 2048 + s.val) * 4096 + k.val
    rfl)

/-- The same with the row named. -/
theorem reshape_unrows_apply_of_eq (y : FVec Ideal ⟨2, ![8192, 4096]⟩ .f32)
    (h : (⟨2, ![8192, 4096]⟩ : Shape).ShapeCasts ⟨3, ![4, 2048, 4096]⟩) (b : Fin 4) (s : Fin 2048) (k : Fin 4096)
    (r : Fin 8192) (hr : r.val = b.val * 2048 + s.val) :
    shapeCast ⟨3, ![4, 2048, 4096]⟩ y h (ix3 b s k) = y (ix2 r k) :=
  shapeCast_apply y h _ _ (by
    rw [Shape.rowMajor_val_three, Shape.rowMajor_val_two]
    show r.val * 4096 + k.val = (b.val * 2048 + s.val) * 4096 + k.val
    omega)

end Cert.Payload

end
-- ==== Proof.Value0.lean ====
/-
  Region 0, value: after the dequantisation kernel the output array holds the dequantised weight matrix.

  The grid has 16 points. Point `t` reads rows 256·t … 256·t + 255 of the codes, scales, zero points and row factors and
  the whole vector of column factors, and writes rows 256·t … 256·t + 255 of the output: entry (p, n) of its block is
  ((code − zero point of the column's group) · scale of that group) · row factor · column factor, read at row p of each
  row block and column n (group n / 128). Row p of block t of every array is row 256·t + p of the array, so what point t
  writes back is block t of one function `Wfun` of the five whole arrays; every row r lies in the block of point r / 256,
  so the blocks cover the array and the array ends at `Wfun`.
-/
import proofs.«166831_j64330020159907_2_alg».proof.Proof.FrameKI.Region0
import proofs.«166831_j64330020159907_2_alg».proof.Proof.Spec
import proofs.«166831_j64330020159907_2_alg».proof.Proof.Payload
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Value0

open Cert.KernelIdeal Cert.KernelIdeal.Gen Cert.KernelIdeal.Frame
open Idealize.ShloMosaic.ValueIdx Cert.Spec

variable (V : (c : Dev nD) → (b : Ref sig .tc) → Buf (Elt Ideal) ((c : Thread nD τ).loc b))

/-- The zero offsets of the whole-buffer rectangles. -/
theorem hz : (![0, 0] : Fin 2 → Nat) = fun _ => 0 := funext fun a => by fin_cases a <;> rfl
theorem hz1 : (![0] : Fin 1 → Nat) = fun _ => 0 := funext fun a => by fin_cases a; rfl

/-- The dequantised weight matrix as a function of the five arrays the region reads: at row `k`, column `n` the code as
    a real, minus the zero point of row `k`, group `n / 128`, times that group's scale, times the row factor, times the
    column factor, in this order. -/
def Wfun (q : Vec Ideal S4096x4096 .i32) (sc2 ze2 : FVec Ideal S4096x32 .f32) (mu1 mu2 : FVec Ideal S4096 .f32) :
    FVec Ideal S4096x4096 .bf16 :=
  fun i => (((FloatOps.sitofp (F := Ideal) .f32 (q i) - ze2 (ix2 (i 0) (grp (i 1)))) * sc2 (ix2 (i 0) (grp (i 1))))
    * mu2 (ix1 (i 0))) * mu1 (ix1 (i 1))

/-- The windows' block indices at every point of the grid: the row-blocked windows are at block `t`, column block 0; the
    column factors' window stays at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = 0
    ∧ win0_4.index t (0 : Fin 1) = t.val
    ∧ win0_5.index t (0 : Fin 2) = t.val ∧ win0_5.index t (1 : Fin 2) = 0 :=
  (by decide +kernel : ∀ t : Fin grid0.N, _)

/-- Row `p` of the block of point `t` is row `256 · t + p` of the array. -/
def row (t : Fin cfg0.N) (p : Fin 256) : Fin 4096 :=
  ⟨256 * t.val + p.val, by have h : t.val < 16 := lt_of_lt_of_eq t.isLt N_0; omega⟩

/-- The codes' block at point `t`, read at (p, n), is the array at (256 · t + p, n). -/
theorem iblk_codes (c : Dev nD) (t : Fin cfg0.N) (p : Fin 256) (n : Fin 4096) :
    (iblk0 V c 0 t : Vec Ideal S256x4096 .i32) (ix2 p n) = (V c main_arg1 : Vec Ideal S4096x4096 .i32) (ix2 (row t p) n) := by
  obtain ⟨e0, e1, -⟩ := idx_facts t
  unfold iblk0
  rw [View.read_apply]
  show V c main_arg1 _ = V c main_arg1 _
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 4096 + 1 * n.val = n.val; rw [e1]; omega

/-- The scales' block at point `t`, read at (p, g), is the array at (256 · t + p, g). -/
theorem iblk_scales (c : Dev nD) (t : Fin cfg0.N) (p : Fin 256) (g : Fin 32) :
    (iblk0 V c 1 t : Vec Ideal S256x32 .f32) (ix2 p g) = (V c main_v0 : Vec Ideal S4096x32 .f32) (ix2 (row t p) g) := by
  obtain ⟨-, -, e0, e1, -⟩ := idx_facts t
  unfold iblk0
  rw [View.read_apply]
  show V c main_v0 _ = V c main_v0 _
  congr 1
  funext a
  apply Fin.ext
  match a with
  | ⟨0, _⟩ => show win0_1.index t (0 : Fin 2) * 256 + 1 * p.val = 256 * t.val + p.val; rw [e0]; omega
  | ⟨1, _⟩ => show win0_1.index t (1 : Fin 2) * 32 + 1 * g.val = g.val; rw [e1]; omega

/-- The zero points' block at point `t`, read at (p, g), is the array at (256 · t + p, g). -/
theorem iblk_zeros (c : Dev nD) (t : Fin cfg0.N) (p : Fin 256) (g : Fin 32) :
    (iblk0 V c 2 t : Vec Ideal S256x32 .f32) (ix2 p g) = (V c main_v1 : Vec Ideal S4096x32 .f32) (ix2 (row t p) g) := by
  obtain ⟨-, -, -, -, e0, e1, -⟩ := idx_facts t
  unfold iblk0
  rw [View.read_apply]
  show V c main_v1 _ = V c main_v1 _
  congr 1
  funext a
  apply Fin.ext
  match a with
  | ⟨0, _⟩ => show win0_2.index t (0 : Fin 2) * 256 + 1 * p.val = 256 * t.val + p.val; rw [e0]; omega
  | ⟨1, _⟩ => show win0_2.index t (1 : Fin 2) * 32 + 1 * g.val = g.val; rw [e1]; omega

/-- The column factors' block is the whole vector at every point. -/
theorem iblk_mu1 (c : Dev nD) (t : Fin cfg0.N) (n : Fin 4096) :
    (iblk0 V c 3 t : Vec Ideal S4096 .f32) (ix1 n) = (V c main_arg4 : Vec Ideal S4096 .f32) (ix1 n) := by
  obtain ⟨-, -, -, -, -, -, e0, -⟩ := idx_facts t
  unfold iblk0
  rw [View.read_apply]
  show V c main_arg4 _ = V c main_arg4 _
  congr 1
  funext a
  apply Fin.ext
  match a with
  | ⟨0, _⟩ => show win0_3.index t (0 : Fin 1) * 4096 + 1 * n.val = n.val; rw [e0]; omega

/-- The row factors' block at point `t`, read at p, is the vector at 256 · t + p. -/
theorem iblk_mu2 (c : Dev nD) (t : Fin cfg0.N) (p : Fin 256) :
    (iblk0 V c 4 t : Vec Ideal S256 .f32) (ix1 p) = (V c main_arg5 : Vec Ideal S4096 .f32) (ix1 (row t p)) := by
  obtain ⟨-, -, -, -, -, -, -, e0, -⟩ := idx_facts t
  unfold iblk0
  rw [View.read_apply]
  show V c main_arg5 _ = V c main_arg5 _
  congr 1
  funext a
  apply Fin.ext
  match a with
  | ⟨0, _⟩ => show win0_4.index t (0 : Fin 1) * 256 + 1 * p.val = 256 * t.val + p.val; rw [e0]; omega

/-- Entry `(p, n)` of the output's block at point `t` is entry `(256 · t + p, n)` of the array. -/
theorem oblk_emb (t : Fin cfg0.N) (p : Fin 256) (n : Fin 4096) :
    ((cfg0.win 5).blk t).view.emb (ix2 p n) = (ix2 (row t p) n : S4096x4096.Idx) := by
  obtain ⟨-, -, -, -, -, -, -, -, e0, e1⟩ := idx_facts t
  funext a
  apply Fin.ext
  match a with
  | ⟨0, _⟩ => show win0_5.index t (0 : Fin 2) * 256 + 1 * p.val = 256 * t.val + p.val; rw [e0]; omega
  | ⟨1, _⟩ => show win0_5.index t (1 : Fin 2) * 4096 + 1 * n.val = n.val; rw [e1]; omega

/-- What point `t` writes back is block `t` of the dequantised matrix. -/
theorem flushed_eq (c : Dev nD) (t : Fin cfg0.N) :
    (dat0 V c).flushed 5 t = ((cfg0.win 5).blk t).view.read (Elt Ideal) (Wfun (V c main_arg1) (V c main_v0) (V c main_v1) (V c main_arg4) (V c main_arg5)) := by
  show (cfg0.win 5).cut (grid0.coords t) ((dat0 V c).after 5 t) = _
  rw [after0_5]
  unfold out0_5
  rw [View.canon_unit_zero hz]
  simp only [View.ld_unit_zero (S := S256x4096) hz, View.ld_unit_zero (S := S256x32) hz, View.ld_unit_zero (S := S256) hz1, View.ld_unit_zero (S := S4096) hz1]
  funext j
  show k0_pay1 (F := Ideal) (iblk0 V c 0 t) (iblk0 V c 1 t) (iblk0 V c 2 t) (iblk0 V c 4 t) (iblk0 V c 3 t) j
    = Wfun (V c main_arg1) (V c main_v0) (V c main_v1) (V c main_arg4) (V c main_arg5) (((cfg0.win 5).blk t).view.emb j)
  obtain ⟨p, n, rfl⟩ : ∃ (p : Fin 256) (n : Fin 4096), j = ix2 p n := ⟨j 0, j 1, eq_ix2 j⟩
  rw [oblk_emb, Cert.Payload.pay1_apply, iblk_codes, iblk_scales, iblk_zeros, iblk_mu1, iblk_mu2]
  rfl

/-- An index of the array is in point `t`'s block iff each coordinate is in the block's range on its axis. -/
theorem mem_blk (t : Fin cfg0.N) (i : S4096x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v2).slice (win0_5.rect t)).set ↔ _
  rw [View.set_slice_whole, Rect.mem_set_unit]
  exact Iff.rfl

/-- Every entry of the array is in some point's block: row `r` is in the block of point `r / 256`. -/
theorem cover (i : S4096x4096.Idx) : ∃ t : Fin cfg0.N, (cfg0.win 5).flush t = true ∧ i ∈ ((cfg0.win 5).blk t).view.set := by
  have h0 : (i 0).val < 4096 := (i 0).isLt
  have h1 : (i 1).val < 4096 := (i 1).isLt
  obtain ⟨t, ht⟩ : ∃ t : Fin cfg0.N, t.val = (i 0).val / 256 :=
    ⟨⟨(i 0).val / 256, lt_of_lt_of_eq (by omega : (i 0).val / 256 < 16) N_0.symm⟩, rfl⟩
  obtain ⟨-, -, -, -, -, -, -, -, e0, e1⟩ := idx_facts t
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; rw [e0, ht]; omega
  | ⟨1, _⟩ => show win0_5.index t (1 : Fin 2) * 4096 ≤ (i 1).val ∧ (i 1).val < win0_5.index t (1 : Fin 2) * 4096 + 4096; rw [e1]; omega

/-- After the region the output array holds the dequantised matrix, as a function of the five arrays the region reads. -/
theorem final0 (c : Dev nD) :
    (dat0 V c).arrAt 5 cfg0.N = Wfun (V c main_arg1) (V c main_v0) (V c main_v1) (V c main_arg4) (V c main_arg5) :=
  (dat0 V c).arrAt_eq_of_cover 5 _ (fun t _ => flushed_eq V c t) cover

end Cert.KernelIdeal.Value0

end
-- ==== Proof.Ofun.lean ====
/-
  The matmul region's result as one function of its three whole operands: entry (r, k) of the output is the inner product
  of row r of the left operand with row k of the right operand, plus entry k of the bias.
-/
import proofs.«166831_j64330020159907_2_alg».proof.KernelIdeal
import Idealize.ShloMosaic.PureOps.Ideal
import Idealize.ShloMosaic.Lib.ValueIdx

noncomputable section

namespace Cert.KernelIdeal.Value1

open Idealize.ShloMosaic Idealize.ShloMosaic.ValueIdx Cert.KernelIdeal

def Ofun (X : FVec Ideal S8192x4096 .f32) (W : FVec Ideal S4096x4096 .bf16) (b : FVec Ideal S4096 .f32) :
    FVec Ideal S8192x4096 .f32 :=
  fun i => (∑ n : Fin 4096, X (ix2 (i 0) n) * W (ix2 (i 1) n)) + b (ix1 (i 1))

theorem Ofun_apply (X : FVec Ideal S8192x4096 .f32) (W : FVec Ideal S4096x4096 .bf16) (b : FVec Ideal S4096 .f32)
    (r : Fin 8192) (k : Fin 4096) :
    Ofun X W b (ix2 r k) = (∑ n : Fin 4096, X (ix2 r n) * W (ix2 k n)) + b (ix1 k) := rfl

end Cert.KernelIdeal.Value1

end
-- ==== Proof.BlockSum.lean ====
/-
  Sums over 4096 consecutive naturals cut into 8 blocks of 512, in the extended reals (an additive commutative
  monoid: no finiteness is needed to regroup a finite sum).
-/
import Mathlib.Data.EReal.Basic
import Mathlib.Algebra.BigOperators.Fin
import Mathlib.Algebra.BigOperators.Group.Finset.Sigma
import Mathlib.Logic.Equiv.Fin.Basic

namespace Cert.BlockSum

open scoped BigOperators

/-- The sum over 8 blocks of 512 terms each, block `l` holding the terms `l * 512 + k`, is the sum over all 4096 terms:
    `(l, k) ↦ l * 512 + k` is a bijection from `Fin 8 × Fin 512` onto `Fin 4096`. -/
theorem sum_blocks (f : ℕ → EReal) :
    (∑ l : Fin 8, ∑ k : Fin 512, f (l.val * 512 + k.val)) = ∑ n : Fin 4096, f n.val := by
  have h : (∑ n : Fin (8 * 512), f n.val) = ∑ p : Fin 8 × Fin 512, f ((finProdFinEquiv p).val) :=
    (Equiv.sum_comp finProdFinEquiv (fun n : Fin (8 * 512) => f n.val)).symm
  rw [show (∑ n : Fin 4096, f n.val) = ∑ n : Fin (8 * 512), f n.val from rfl, h, Fintype.sum_prod_type]
  refine Finset.sum_congr rfl fun l _ => Finset.sum_congr rfl fun k _ => ?_
  refine congrArg f ?_
  show l.val * 512 + k.val = k.val + 512 * l.val
  omega

/-- One more block: the sum over the first `j + 1` blocks is the sum over the first `j` plus block `j`. -/
theorem sum_succ_blocks (f : ℕ → EReal) (j : ℕ) :
    (∑ l ∈ Finset.range (j + 1), ∑ k : Fin 512, f (l * 512 + k.val))
      = (∑ l ∈ Finset.range j, ∑ k : Fin 512, f (l * 512 + k.val)) + ∑ k : Fin 512, f (j * 512 + k.val) :=
  Finset.sum_range_succ (fun l => ∑ k : Fin 512, f (l * 512 + k.val)) j

/-- No block: the empty sum. -/
theorem sum_zero_blocks (f : ℕ → EReal) :
    (∑ l ∈ Finset.range 0, ∑ k : Fin 512, f (l * 512 + k.val)) = 0 :=
  Finset.sum_range_zero _

/-- The sum over the first 8 blocks, indexed by naturals below 8, is the sum indexed by `Fin 8`. -/
theorem sum_range_blocks (f : ℕ → EReal) :
    (∑ l ∈ Finset.range 8, ∑ k : Fin 512, f (l * 512 + k.val)) = ∑ l : Fin 8, ∑ k : Fin 512, f (l.val * 512 + k.val) :=
  Finset.sum_range (fun l => ∑ k : Fin 512, f (l * 512 + k.val))

/-- All 8 blocks, indexed by naturals, are the whole sum. -/
theorem sum_range_blocks_all (f : ℕ → EReal) :
    (∑ l ∈ Finset.range 8, ∑ k : Fin 512, f (l * 512 + k.val)) = ∑ n : Fin 4096, f n.val :=
  (sum_range_blocks f).trans (sum_blocks f)

end Cert.BlockSum
-- ==== Proof.Value1.lean ====
/-
  The matmul region's value: the output array after the region is one function of the three whole operands.

  The grid is 8 × 2 × 8 in row-major order; point `t` is `(i, j, l) = (t / 16, (t / 8) % 2, t % 8)`. At point `t` the input
  window holds rows `i · 1024 …` and columns `l · 512 …` of the input, the weight window rows `j · 2048 …` and the same
  columns of the weights, the bias window entries `j · 2048 …` of the bias. The accumulator is carried along `l`: after
  point `t` its entry `(p, q)` is the partial inner product of input row `i · 1024 + p` with weight row `j · 2048 + q`
  over the first `(l + 1) · 512` columns (induction along the reduction axis). At `l = 7` the whole inner product plus
  the bias entry is written back into block `(i, j)` of the output, and these blocks cover the output array.
-/
import proofs.«166831_j64330020159907_2_alg».proof.Proof.FrameKI.Region1
import proofs.«166831_j64330020159907_2_alg».proof.Proof.Ofun
import proofs.«166831_j64330020159907_2_alg».proof.Proof.Payload
import proofs.«166831_j64330020159907_2_alg».proof.Proof.BlockSum
import Idealize.ShloMosaic.Lib.Pipeline.Value

set_option maxRecDepth 16384

noncomputable section

namespace Cert.KernelIdeal.Value1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Frame

/-! ## The index maps over the grid

The 128 points are `(i, j, l)` in row-major order on the grid 8 × 2 × 8: `i = t / 16`, `j = (t / 8) % 2`, `l = t % 8`. -/

theorem idx_facts : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 1) = t.val / 8 % 2
    ∧ win1_3.index t (0 : Fin 2) = t.val / 16 ∧ win1_3.index t (1 : Fin 2) = t.val / 8 % 2 :=
  (by decide +kernel : ∀ t : Fin grid1.N, _)

variable (V : (c : Dev nD) → (b : Ref sig .tc) → Buf (Elt Ideal) ((c : Thread nD τ).loc b))

/-! ## The blocks the windows read -/

/-- The input window's block at point `t` is rows `(t / 16) · 1024 …`, columns `(t % 8) · 512 …` of the input. -/
theorem iblk1_0_apply (c : Dev nD) (t : Fin cfg1.N) (p : Fin 1024) (k : Fin 512) (r : Fin 8192) (n : Fin 4096)
    (hr : r.val = t.val / 16 * 1024 + p.val) (hn : n.val = t.val % 8 * 512 + k.val) :
    (iblk1 V c 0 t : Vec Ideal S1024x512 .f32) (ix2 p k) = (V c main_v3 : FVec Ideal S8192x4096 .f32) (ix2 r n) := by
  obtain ⟨e0, e1, -⟩ := idx_facts t
  unfold iblk1
  rw [View.read_apply]
  show V c main_v3 (((cfg1.win 0).blk t).view.emb (ix2 p k)) = V c main_v3 (ix2 r n)
  refine congrArg (V c main_v3) (funext fun a => Fin.ext ?_)
  match a with
  | ⟨0, _⟩ => show win1_0.index t (0 : Fin 2) * 1024 + 1 * p.val = r.val; rw [e0, hr]; omega
  | ⟨1, _⟩ => show win1_0.index t (1 : Fin 2) * 512 + 1 * k.val = n.val; rw [e1, hn]; omega

/-- The weight window's block at point `t` is rows `((t / 8) % 2) · 2048 …`, columns `(t % 8) · 512 …` of the weights. -/
theorem iblk1_1_apply (c : Dev nD) (t : Fin cfg1.N) (q : Fin 2048) (k : Fin 512) (m : Fin 4096) (n : Fin 4096)
    (hm : m.val = t.val / 8 % 2 * 2048 + q.val) (hn : n.val = t.val % 8 * 512 + k.val) :
    (iblk1 V c 1 t : Vec Ideal S2048x512 .bf16) (ix2 q k) = (V c main_v2 : FVec Ideal S4096x4096 .bf16) (ix2 m n) := by
  obtain ⟨-, -, e0, e1, -⟩ := idx_facts t
  unfold iblk1
  rw [View.read_apply]
  show V c main_v2 (((cfg1.win 1).blk t).view.emb (ix2 q k)) = V c main_v2 (ix2 m n)
  refine congrArg (V c main_v2) (funext fun a => Fin.ext ?_)
  match a with
  | ⟨0, _⟩ => show win1_1.index t (0 : Fin 2) * 2048 + 1 * q.val = m.val; rw [e0, hm]; omega
  | ⟨1, _⟩ => show win1_1.index t (1 : Fin 2) * 512 + 1 * k.val = n.val; rw [e1, hn]; omega

/-- The bias window's block at point `t` is entries `((t / 8) % 2) · 2048 …` of the bias. -/
theorem iblk1_2_apply (c : Dev nD) (t : Fin cfg1.N) (q : Fin 2048) (m : Fin 4096)
    (hm : m.val = t.val / 8 % 2 * 2048 + q.val) :
    (iblk1 V c 2 t : Vec Ideal S2048 .f32) (ix1 q) = (V c main_arg6 : FVec Ideal S4096 .f32) (ix1 m) := by
  obtain ⟨-, -, -, -, e0, -⟩ := idx_facts t
  unfold iblk1
  rw [View.read_apply]
  show V c main_arg6 (((cfg1.win 2).blk t).view.emb (ix1 q)) = V c main_arg6 (ix1 m)
  refine congrArg (V c main_arg6) (funext fun a => Fin.ext ?_)
  match a with
  | ⟨0, _⟩ => show win1_2.index t (0 : Fin 1) * 2048 + 1 * q.val = m.val; rw [e0, hm]; omega

/-! ## The accumulator after each point -/

/-- The product of input row `r` and weight row `m` at column `n`, as a function of a natural (zero past the last column). -/
def term (X : FVec Ideal S8192x4096 .f32) (W : FVec Ideal S4096x4096 .bf16) (r : Fin 8192) (m : Fin 4096) (n : ℕ) : EReal :=
  if h : n < 4096 then X (ix2 r ⟨n, h⟩) * W (ix2 m ⟨n, h⟩) else 0

theorem term_of_lt (X : FVec Ideal S8192x4096 .f32) (W : FVec Ideal S4096x4096 .bf16) (r : Fin 8192) (m : Fin 4096)
    (n : Fin 4096) : term X W r m n.val = X (ix2 r n) * W (ix2 m n) := by
  unfold term
  rw [dif_pos n.isLt]

/-- One reduction step's contribution at an entry: the products over the step's 512 columns, for blocks `x`, `w` that are
    rows `r`, `m` and columns `l · 512 …` of the whole operands. -/
theorem step_sum (X : FVec Ideal S8192x4096 .f32) (W : FVec Ideal S4096x4096 .bf16) (x : Vec Ideal S1024x512 .f32)
    (w : Vec Ideal S2048x512 .bf16) (p : Fin 1024) (q : Fin 2048) (r : Fin 8192) (m : Fin 4096) (l : ℕ) (hl : l < 8)
    (hx : ∀ (k : Fin 512) (n : Fin 4096), n.val = l * 512 + k.val → x (ix2 p k) = X (ix2 r n))
    (hw : ∀ (k : Fin 512) (n : Fin 4096), n.val = l * 512 + k.val → w (ix2 q k) = W (ix2 m n)) :
    (∑ k : Fin 512, x (ix2 p k) * w (ix2 q k)) = ∑ k : Fin 512, term X W r m (l * 512 + k.val) :=
  Finset.sum_congr rfl fun k _ => by
    have hlt : l * 512 + k.val < 4096 := by have := k.isLt; omega
    rw [hx k ⟨_, hlt⟩ rfl, hw k ⟨_, hlt⟩ rfl]
    unfold term
    rw [dif_pos hlt]

/-- One reduction step at an entry: if the accumulator held the partial sum over the first `l` steps, it now holds the
    partial sum over the first `l + 1`. -/
theorem acc_step (X : FVec Ideal S8192x4096 .f32) (W : FVec Ideal S4096x4096 .bf16) (x : Vec Ideal S1024x512 .f32)
    (s : Vec Ideal S1024x2048 .f32) (w : Vec Ideal S2048x512 .bf16) (p : Fin 1024) (q : Fin 2048) (r : Fin 8192)
    (m : Fin 4096) (l : ℕ) (hl : l < 8)
    (hx : ∀ (k : Fin 512) (n : Fin 4096), n.val = l * 512 + k.val → x (ix2 p k) = X (ix2 r n))
    (hw : ∀ (k : Fin 512) (n : Fin 4096), n.val = l * 512 + k.val → w (ix2 q k) = W (ix2 m n))
    (hs : s (ix2 p q) = ∑ l' ∈ Finset.range l, ∑ k : Fin 512, term X W r m (l' * 512 + k.val)) :
    k1_pay2 (F := Ideal) x s w (ix2 p q) = ∑ l' ∈ Finset.range (l + 1), ∑ k : Fin 512, term X W r m (l' * 512 + k.val) := by
  rw [Cert.Payload.pay2_apply, hs, step_sum X W x w p q r m l hl hx hw]
  exact (Cert.BlockSum.sum_succ_blocks (term X W r m) l).symm

/-- After point `n`, whose reduction step is `l = n % 8`, the accumulator's entry `(p, q)` is the inner product's partial
    sum over the first `l + 1` steps: by induction along the reduction axis (the points `n − 1` and `n` share their input
    and weight rows when `l ≠ 0`). -/
theorem acc1_apply (c : Dev nD) : ∀ (n : ℕ) (hn : n < cfg1.N) (p : Fin 1024) (q : Fin 2048) (r : Fin 8192) (m : Fin 4096),
    r.val = n / 16 * 1024 + p.val → m.val = n / 8 % 2 * 2048 + q.val →
    acc1 V c n hn (ix2 p q)
      = ∑ l ∈ Finset.range (n % 8 + 1), ∑ k : Fin 512, term (V c main_v3) (V c main_v2) r m (l * 512 + k.val) := by
  intro n
  induction n using Nat.strong_induction_on with
  | _ n ih =>
    intro hn p q r m hr hm
    have hl : n % 8 < 8 := Nat.mod_lt _ (by decide)
    by_cases h0 : n % 8 = 0
    · refine (congrFun (acc1_first V c ⟨n, hn⟩ h0) (ix2 p q)).trans ?_
      refine acc_step (V c main_v3) (V c main_v2) (iblk1 V c 0 ⟨n, hn⟩) (k1_pay1 (F := Ideal)) (iblk1 V c 1 ⟨n, hn⟩) p q r m
        (n % 8) hl (fun k nn h => iblk1_0_apply V c ⟨n, hn⟩ p k r nn hr h) (fun k nn h => iblk1_1_apply V c ⟨n, hn⟩ q k m nn hm h) ?_
      rw [h0, Finset.sum_range_zero]
      exact Cert.Payload.pay1_zero p q
    · refine (congrFun (acc1_later V c ⟨n, hn⟩ h0) (ix2 p q)).trans ?_
      have hs := ih (n - 1) (by omega) (by omega) p q r m (by omega) (by omega)
      rw [show (n - 1) % 8 + 1 = n % 8 from by omega] at hs
      exact acc_step (V c main_v3) (V c main_v2) (iblk1 V c 0 ⟨n, hn⟩) (acc1 V c (n - 1) _) (iblk1 V c 1 ⟨n, hn⟩) p q r m
        (n % 8) hl (fun k nn h => iblk1_0_apply V c ⟨n, hn⟩ p k r nn hr h) (fun k nn h => iblk1_1_apply V c ⟨n, hn⟩ q k m nn hm h) hs

/-! ## What a flushing point writes back -/

/-- The last step's stored entry, for an accumulator holding the whole inner product and a bias block that is entries
    of the whole bias: the output function at the entry's place in the array. -/
theorem out_step (X : FVec Ideal S8192x4096 .f32) (W : FVec Ideal S4096x4096 .bf16) (b : FVec Ideal S4096 .f32)
    (a : Vec Ideal S1024x2048 .f32) (bb : Vec Ideal S2048 .f32) (p : Fin 1024) (q : Fin 2048) (r : Fin 8192) (m : Fin 4096)
    (ha : a (ix2 p q) = ∑ l ∈ Finset.range 8, ∑ k : Fin 512, term X W r m (l * 512 + k.val))
    (hb : bb (ix1 q) = b (ix1 m)) :
    k1_pay3 (F := Ideal) a bb (ix2 p q) = Ofun X W b (ix2 r m) := by
  rw [Cert.Payload.pay3_apply, ha, hb, Ofun_apply, Cert.BlockSum.sum_range_blocks_all]
  exact congrArg (· + b (ix1 m)) (Finset.sum_congr rfl fun n _ => term_of_lt X W r m n)

/-- WHAT A FLUSHING POINT WRITES BACK is its block of the output function of the three whole operands. -/
theorem flushed_eq (c : Dev nD) (t : Fin cfg1.N) (h7 : t.val % 8 = 7) :
    (dat1 V c).flushed 3 t
      = ((cfg1.win 3).blk t).view.read (Elt Ideal) (Ofun (V c main_v3) (V c main_v2) (V c main_arg6)) := by
  show (cfg1.win 3).cut (grid1.coords t) ((dat1 V c).after 3 t) = _
  rw [after1_3]
  obtain ⟨-, -, -, -, -, e0, e1⟩ := idx_facts t
  have hN : cfg1.N = 128 := N_1
  have ht : t.val < 128 := hN ▸ t.isLt
  refine funext fun (y : S1024x2048.Idx) => ?_
  obtain ⟨p, q, rfl⟩ : ∃ (p : Fin 1024) (q : Fin 2048), y = ix2 p q := ⟨y 0, y 1, eq_ix2 y⟩
  have hr : t.val / 16 * 1024 + p.val < 8192 := by have := p.isLt; omega
  have hm : t.val / 8 % 2 * 2048 + q.val < 4096 := by have := q.isLt; omega
  have ha := acc1_apply V c t.val t.isLt p q ⟨_, hr⟩ ⟨_, hm⟩ rfl rfl
  rw [h7] at ha
  refine (out_step (V c main_v3) (V c main_v2) (V c main_arg6) (acc1 V c t.val t.isLt) (iblk1 V c 2 t) p q ⟨_, hr⟩ ⟨_, hm⟩ ha
    (iblk1_2_apply V c t q ⟨_, hm⟩ rfl)).trans ?_
  rw [View.read_apply]
  show Ofun (V c main_v3) (V c main_v2) (V c main_arg6) _
    = Ofun (V c main_v3) (V c main_v2) (V c main_arg6) (((cfg1.win 3).blk t).view.emb (ix2 p q))
  refine congrArg (Ofun (V c main_v3) (V c main_v2) (V c main_arg6)) (funext fun a => Fin.ext ?_)
  match a with
  | ⟨0, _⟩ => show t.val / 16 * 1024 + p.val = win1_3.index t (0 : Fin 2) * 1024 + 1 * p.val; rw [e0]; omega
  | ⟨1, _⟩ => show t.val / 8 % 2 * 2048 + q.val = win1_3.index t (1 : Fin 2) * 2048 + 1 * q.val; rw [e1]; omega

/-! ## The flushing points' blocks cover the array -/

/-- An index of the array is in point `t`'s block iff each coordinate is in the block's range on its axis. -/
theorem mem_blk (t : Fin cfg1.N) (i : S8192x4096.Idx) :
    i ∈ ((cfg1.win 3).blk t).view.set
      ↔ ∀ a : Fin 2, win1_3.index t a * S1024x2048.size a ≤ (i a).val
          ∧ (i a).val < win1_3.index t a * S1024x2048.size a + S1024x2048.size a := by
  show i ∈ ((View.whole main_v4).slice (win1_3.rect t)).set ↔ _
  rw [View.set_slice_whole, Rect.mem_set_unit]
  exact Iff.rfl

/-- Row `r`, column `k` of the array lies in the block of the last reduction step of the point with `i = r / 1024`,
    `j = k / 2048`. -/
theorem covered (i : S8192x4096.Idx) :
    ∃ t : Fin cfg1.N, (cfg1.win 3).flush t = true ∧ i ∈ ((cfg1.win 3).blk t).view.set := by
  have hN : cfg1.N = 128 := N_1
  have h0 : (i 0).val < 8192 := (i 0).isLt
  have h1 : (i 1).val < 4096 := (i 1).isLt
  have hlt : ((i 0).val / 1024 * 2 + (i 1).val / 2048) * 8 + 7 < cfg1.N := by rw [hN]; omega
  refine ⟨⟨_, hlt⟩, (flush1_3 _).mpr (by show (((i 0).val / 1024 * 2 + (i 1).val / 2048) * 8 + 7) % 8 = 7; omega), ?_⟩
  obtain ⟨-, -, -, -, -, e0, e1⟩ := idx_facts ⟨_, hlt⟩
  rw [mem_blk]
  intro a
  match a with
  | ⟨0, _⟩ =>
    show win1_3.index ⟨_, hlt⟩ (0 : Fin 2) * 1024 ≤ (i 0).val ∧ (i 0).val < win1_3.index ⟨_, hlt⟩ (0 : Fin 2) * 1024 + 1024
    rw [e0]
    show (((i 0).val / 1024 * 2 + (i 1).val / 2048) * 8 + 7) / 16 * 1024 ≤ (i 0).val
      ∧ (i 0).val < (((i 0).val / 1024 * 2 + (i 1).val / 2048) * 8 + 7) / 16 * 1024 + 1024
    omega
  | ⟨1, _⟩ =>
    show win1_3.index ⟨_, hlt⟩ (1 : Fin 2) * 2048 ≤ (i 1).val ∧ (i 1).val < win1_3.index ⟨_, hlt⟩ (1 : Fin 2) * 2048 + 2048
    rw [e1]
    show (((i 0).val / 1024 * 2 + (i 1).val / 2048) * 8 + 7) / 8 % 2 * 2048 ≤ (i 1).val
      ∧ (i 1).val < (((i 0).val / 1024 * 2 + (i 1).val / 2048) * 8 + 7) / 8 % 2 * 2048 + 2048
    omega

/-! ## The array after the region -/

/-- THE OUTPUT ARRAY after the region is the output function of the three whole operands as the region finds them. -/
theorem final1 (c : Dev nD) :
    (dat1 V c).arrAt 3 cfg1.N = Ofun (V c main_v3) (V c main_v2) (V c main_arg6) :=
  (dat1 V c).arrAt_eq_of_cover 3 (Ofun (V c main_v3) (V c main_v2) (V c main_arg6))
    (fun t hf => flushed_eq V c t ((flush1_3 t).mp hf)) covered

end Cert.KernelIdeal.Value1

end
-- ==== Proof.Bridge.lean ====
/-
  The kernel program's data flow, as one function of its arguments, is the specification.

  The program drops the trailing unit axis of the scales and zero points, dequantises the weight matrix, views the input
  [4, 2048, 4096] as 8192 rows of 4096, takes each row's inner product with each weight row and adds the bias, and views
  the 8192 rows of the result as [4, 2048, ·] again. Row b · 2048 + s of the flattened input is the input at (b, s), the
  reshaped scale at (k, g) is the scale at (k, g, 0), so the result at (b, s, k) is the sum over n of
  x[b, s, n] · W[k, n] plus bias[k] with W the specification's dequantised weight.
-/
import proofs.«166831_j64330020159907_2_alg».proof.Proof.Spec
import proofs.«166831_j64330020159907_2_alg».proof.Proof.Value0
import proofs.«166831_j64330020159907_2_alg».proof.Proof.Ofun
import proofs.«166831_j64330020159907_2_alg».proof.Proof.Payload

noncomputable section

namespace Cert.KernelIdeal.Bridge

open Idealize.ShloMosaic Idealize.ShloMosaic.ValueIdx Cert.KernelIdeal Cert.KernelIdeal.Gen Cert.Spec

/-- The dequantised weight of the scales and zero points with their unit axis dropped, at row `k`, column `n`, is the
    specification's weight: the reshaped array at (k, g) is the original at (k, g, 0). -/
theorem Wfun_apply (q : Vec Ideal S4096x4096 .i32) (sc ze : FVec Ideal S4096x32x1 .f32) (mu1 mu2 : FVec Ideal S4096 .f32)
    (k n : Fin 4096) :
    Cert.KernelIdeal.Value0.Wfun q (shapeCast S4096x32 sc shapeCasts_S4096x32x1_S4096x32)
        (shapeCast S4096x32 ze shapeCasts_S4096x32x1_S4096x32) mu1 mu2 (ix2 k n)
      = Wd q sc ze mu1 mu2 k n := by
  show (((FloatOps.sitofp (F := Ideal) .f32 (q (ix2 k n))
            - shapeCast S4096x32 ze shapeCasts_S4096x32x1_S4096x32 (ix2 k (grp n)))
          * shapeCast S4096x32 sc shapeCasts_S4096x32x1_S4096x32 (ix2 k (grp n))) * mu2 (ix1 k)) * mu1 (ix1 n) = _
  rw [Cert.Payload.reshape_drop_unit_apply, Cert.Payload.reshape_drop_unit_apply]
  rfl

/-- The program's result, as a function of its seven arguments, is the specification's array. -/
theorem bridge (x : FVec Ideal S4x2048x4096 .f32) (q : Vec Ideal S4096x4096 .i32) (sc ze : FVec Ideal S4096x32x1 .f32)
    (mu1 mu2 bias : FVec Ideal S4096 .f32) :
    shapeCast S4x2048x4096
        (Cert.KernelIdeal.Value1.Ofun (shapeCast S8192x4096 x shapeCasts_S4x2048x4096_S8192x4096)
          (Cert.KernelIdeal.Value0.Wfun q (shapeCast S4096x32 sc shapeCasts_S4096x32x1_S4096x32)
            (shapeCast S4096x32 ze shapeCasts_S4096x32x1_S4096x32) mu1 mu2) bias)
        shapeCasts_S8192x4096_S4x2048x4096
      = Cert.Spec.G x q sc ze mu1 mu2 bias := by
  funext i
  obtain ⟨b, s, k, rfl⟩ : ∃ (b : Fin 4) (s : Fin 2048) (k : Fin 4096), i = ix3 b s k := ⟨i 0, i 1, i 2, eq_ix3 i⟩
  rw [Cert.Payload.reshape_unrows_apply, Cert.KernelIdeal.Value1.Ofun_apply, G_apply]
  unfold Gc
  refine congrArg (· + bias (ix1 k)) (Finset.sum_congr rfl fun n _ => ?_)
  rw [Cert.Payload.reshape_rows_apply_of_eq x _ _ n b s rfl, Wfun_apply]

end Cert.KernelIdeal.Bridge

end
-- ==== Proof.HostReads.lean ====
/-
  The host reshapes of the kernel program, read off a valuation of the references.

  Each stretch of host operations is a list of reshapes; after it, the result reference holds the operand's contents
  viewed at the result's shape (the same elements in row-major order), whatever the valuation it started from.
-/
import proofs.«166831_j64330020159907_2_alg».proof.Proof.Gen.KernelIdeal.Launch
import Idealize.ShloMosaic.Lib.StableHlo.Run
import Idealize.ShloMosaic.PureOps.Ideal

noncomputable section

namespace Cert.KernelIdeal.HostReads

open Idealize.ShloMosaic Idealize.ShloMosaic.TcCoe Idealize.ShloMosaic.StableHlo Cert.KernelIdeal Cert.KernelIdeal.Gen

variable (W : Valuation τ sig (Elt Ideal))

/-- After the first stretch the scales with their trailing unit axis dropped are the scales viewed as [4096, 32]. -/
theorem after0_v0 :
    (StableHlo.after (hostOps0 (F := Ideal)) W (Proc.devRef .tc main_v0) : FVec Ideal S4096x32 .f32)
      = shapeCast S4096x32 (W (Proc.devRef .tc main_arg2) : FVec Ideal S4096x32x1 .f32) shapeCasts_S4096x32x1_S4096x32 := by
  after_results
  rfl

/-- After the first stretch the zero points with their trailing unit axis dropped are the zero points viewed as
    [4096, 32]. -/
theorem after0_v1 :
    (StableHlo.after (hostOps0 (F := Ideal)) W (Proc.devRef .tc main_v1) : FVec Ideal S4096x32 .f32)
      = shapeCast S4096x32 (W (Proc.devRef .tc main_arg3) : FVec Ideal S4096x32x1 .f32) shapeCasts_S4096x32x1_S4096x32 := by
  after_results
  rfl

/-- After the second stretch the flattened input is the input viewed as [8192, 4096]. -/
theorem after1_v3 :
    (StableHlo.after (hostOps1 (F := Ideal)) W (Proc.devRef .tc main_v3) : FVec Ideal S8192x4096 .f32)
      = shapeCast S8192x4096 (W (Proc.devRef .tc main_arg0) : FVec Ideal S4x2048x4096 .f32) shapeCasts_S4x2048x4096_S8192x4096 := by
  after_results
  rfl

/-- After the last stretch the result is the matmul's output viewed as [4, 2048, 4096]. -/
theorem after2_v5 :
    (StableHlo.after (hostOps2 (F := Ideal)) W (Proc.devRef .tc main_v5) : FVec Ideal S4x2048x4096 .f32)
      = shapeCast S4x2048x4096 (W (Proc.devRef .tc main_v4) : FVec Ideal S8192x4096 .f32) shapeCasts_S8192x4096_S4x2048x4096 := by
  after_results
  rfl

end Cert.KernelIdeal.HostReads

end
-- ==== Proof.KernelValue.lean ====
/-
  The idealized kernel program's result, as one function of its arguments.

  The run leaves every unscoped buffer at the last of the valuations followed through the five segments. Read backwards
  from the result: it is the matmul region's output array viewed as [4, 2048, 4096]; that array is the region's closed form
  of the flattened input, of the dequantisation region's output array and of the bias; the dequantisation region's output
  is its closed form of the codes, of the scales and zero points with their unit axis dropped, and of the two factor
  vectors; and no segment before a buffer's use writes an argument. Put together this is the specification.
-/
import proofs.«166831_j64330020159907_2_alg».proof.Proof.FrameKI.Run
import proofs.«166831_j64330020159907_2_alg».proof.Proof.Value0
import proofs.«166831_j64330020159907_2_alg».proof.Proof.Value1
import proofs.«166831_j64330020159907_2_alg».proof.Proof.Bridge
import proofs.«166831_j64330020159907_2_alg».proof.Proof.HostReads

set_option maxRecDepth 16384

noncomputable section

namespace Cert.KernelIdeal.KValue

open Idealize.ShloMosaic Idealize.ShloMosaic.TcCoe
open Idealize.SL Idealize.SL.Sem
open Idealize.ShloMosaic.Pipeline (Dat)
open Cert.KernelIdeal Cert.KernelIdeal.Gen Cert.KernelIdeal.Frame

variable (m : (ℓ : Loc nD τ sig) → Buf (Elt Ideal) ℓ) (ρ : Dev nD → PrngReg)

/-! ## The arguments as each region finds them -/

theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_v0 (c : Dev nD) : (W1 m ρ c (Proc.devRef .tc main_v0) : FVec Ideal S4096x32 .f32)
    = shapeCast S4096x32 (m ((c : Thread nD τ).loc main_arg2) : FVec Ideal S4096x32x1 .f32) shapeCasts_S4096x32x1_S4096x32 :=
  HostReads.after0_v0 (W0 m ρ c)
theorem W1_v1 (c : Dev nD) : (W1 m ρ c (Proc.devRef .tc main_v1) : FVec Ideal S4096x32 .f32)
    = shapeCast S4096x32 (m ((c : Thread nD τ).loc main_arg3) : FVec Ideal S4096x32x1 .f32) shapeCasts_S4096x32x1_S4096x32 :=
  HostReads.after0_v1 (W0 m ρ c)

/-- The dequantised weights, as the matmul region finds them. -/
theorem W3_v2 (c : Dev nD) : (W3 m ρ c (Proc.devRef .tc main_v2) : FVec Ideal S4096x4096 .bf16)
    = Value0.Wfun (m ((c : Thread nD τ).loc main_arg1))
        (shapeCast S4096x32 (m ((c : Thread nD τ).loc main_arg2) : FVec Ideal S4096x32x1 .f32) shapeCasts_S4096x32x1_S4096x32)
        (shapeCast S4096x32 (m ((c : Thread nD τ).loc main_arg3) : FVec Ideal S4096x32x1 .f32) shapeCasts_S4096x32x1_S4096x32)
        (m ((c : Thread nD τ).loc main_arg4)) (m ((c : Thread nD τ).loc main_arg5)) := by
  have h1 : W3 m ρ c (Proc.devRef .tc main_v2) = W2 m ρ c (Proc.devRef .tc main_v2) :=
    StableHlo.after_of_forall_not_mem (b := Proc.devRef .tc main_v2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have h2 : W2 m ρ c (Proc.devRef .tc main_v2) = (dat0 (V1 m ρ) c).arrAt 5 cfg0.N := W2_arr m ρ c 5
  have h3 := Value0.final0 (V1 m ρ) c
  rw [h1, h2, h3]
  show Value0.Wfun (W1 m ρ c (Proc.devRef .tc main_arg1)) (W1 m ρ c (Proc.devRef .tc main_v0)) (W1 m ρ c (Proc.devRef .tc main_v1))
    (W1 m ρ c (Proc.devRef .tc main_arg4)) (W1 m ρ c (Proc.devRef .tc main_arg5)) = _
  rw [W1_arg1, W1_arg4, W1_arg5, W1_v0, W1_v1]

/-- The flattened input. -/
theorem W3_v3 (c : Dev nD) : (W3 m ρ c (Proc.devRef .tc main_v3) : FVec Ideal S8192x4096 .f32)
    = shapeCast S8192x4096 (m ((c : Thread nD τ).loc main_arg0) : FVec Ideal S4x2048x4096 .f32) shapeCasts_S4x2048x4096_S8192x4096 := by
  have h0 : W2 m ρ c (Proc.devRef .tc main_arg0) = m ((c : Thread nD τ).loc main_arg0) :=
    (W2_of_ne m ρ c main_arg0 (by decide)).trans ((StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)
  rw [show W3 m ρ c (Proc.devRef .tc main_v3) = _ from HostReads.after1_v3 (W2 m ρ c), h0]

/-- The bias. -/
theorem W3_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg6 (by decide)).trans ((StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))

/-- THE RESULT: the last valuation at the result buffer is the specification of the launch memory's arguments. -/
theorem W5_v5 (c : Dev nD) : (W5 m ρ c (Proc.devRef .tc main_v5) : FVec Ideal S4x2048x4096 .f32)
    = Cert.Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  have h4 : W4 m ρ c (Proc.devRef .tc main_v4) = (dat1 (V3 m ρ) c).arrAt 3 cfg1.N := W4_arr m ρ c 3
  have h5 := Value1.final1 (V3 m ρ) c
  rw [show W5 m ρ c (Proc.devRef .tc main_v5) = _ from HostReads.after2_v5 (W4 m ρ c), h4, h5]
  show shapeCast S4x2048x4096 (Value1.Ofun (W3 m ρ c (Proc.devRef .tc main_v3)) (W3 m ρ c (Proc.devRef .tc main_v2)) (W3 m ρ c (Proc.devRef .tc main_arg6))) _ = _
  rw [W3_v3, W3_v2, W3_arg6]
  exact Bridge.bridge _ _ _ _ _ _ _

/-- The idealized kernel program runs to the end with its result at the specification of its arguments, and its
    arguments unchanged. -/
theorem run_G : θ_run (defs (F := Ideal)) (onTc (τ := τ) (main (F := Ideal))) ⟨m, fun _ => 0, ρ⟩ (fun r => ∀ c : Dev nD,
      r.2.mem ((c.tc : Thread nD τ).loc main_v5) = Cert.Spec.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v5 (by decide))).trans (W5_v5 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_all m ρ)

end Cert.KernelIdeal.KValue

end
-- ==== Proof.lean ====
/-
  The certificate of a quantised linear layer: a two-kernel program against its array-language reference.

  The program dequantises a 4096 × 4096 matrix of four-bit codes group by group (32 groups of 128 columns, each row of a
  group with its own scale and zero point), multiplies by a row factor and a column factor, and stores the weights in a
  narrow float format; a second kernel multiplies the flattened 8192 × 4096 input by the transposed weights, accumulating
  over the 4096-long contraction in eight blocks of 512 in a scratch accumulator carried across grid points, and adds the
  bias at the last block. The reference does the same with whole-array operations and ONE contraction.

  Over the extended reals a change of float format is the identity and addition is commutative and associative (no
  finiteness is needed: no law used here distributes or cancels), so the eight partial sums added one after another from
  zero are the one sum over 4096 terms, and both programs compute, at (b, s, k),
      Σₙ x[b,s,n] · ((q[k,n] − zero[k,n/128]) · scale[k,n/128] · mu2[k] · mu1[n]) + bias[k].

  The three frames: both kernel programs (the printed one at the bit level and its idealization) run to the end because
  each of their two regions' bodies runs at every grid point from the region's invariant (the matmul's invariant carries
  the accumulator), and no segment writes an argument; the reference is straight-line host code. The idealization
  rewrote nothing, so it preserves the kernel trivially.
-/
import proofs.«166831_j64330020159907_2_alg».proof.Defs
import proofs.«166831_j64330020159907_2_alg».proof.Proof.Gen.Kernel
import proofs.«166831_j64330020159907_2_alg».proof.Proof.Gen.KernelIdeal
import proofs.«166831_j64330020159907_2_alg».proof.Proof.Gen.ReferenceIdeal
import proofs.«166831_j64330020159907_2_alg».proof.Proof.Gen.Pre_finite_inputs
import proofs.«166831_j64330020159907_2_alg».proof.Proof.FrameK.Run
import proofs.«166831_j64330020159907_2_alg».proof.Proof.FrameKI.Run
import proofs.«166831_j64330020159907_2_alg».proof.Proof.RefValue
import proofs.«166831_j64330020159907_2_alg».proof.Proof.KernelValue
import Idealize.ShloMosaic.Adequacy
import Idealize.ShloMosaic.Init

noncomputable section

namespace Cert.Proof

open Idealize.ShloMosaic Idealize.SL.Sem

/-- The printed kernel program, read at the bit level, runs and leaves its arguments unchanged. -/
theorem frame_k : Cert.frame_Kernel := fun m ρ _ => Cert.Kernel.Frame.frame m ρ

/-- So does its idealization, read over the extended reals. -/
theorem frame_ki : Cert.frame_KernelIdeal := fun m ρ _ => Cert.KernelIdeal.Frame.frame m ρ

/-- Both idealized programs end with the specification of their (agreeing) arguments in their result buffers. -/
theorem algebraic : Cert.algebraic_KernelIdeal_ReferenceIdeal := by
  intro m ρ m' ρ' _ hagree
  refine ⟨_, Cert.KernelIdeal.KValue.run_G m ρ, ?_⟩
  refine (θ_run Cert.ReferenceIdeal.defs _ _).mono (fun _ h c => ⟨(h c).1.trans ?_, (h c).2⟩) (Cert.RefValue.run_G m' ρ')
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.RefValue.frame, trivial, algebraic⟩

end Cert.Proof

end
